-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S_ : Shape := ⟨0, ![]⟩
abbrev S4x2048x1024 : Shape := ⟨3, ![4, 2048, 1024]⟩
abbrev S4x2048 : Shape := ⟨2, ![4, 2048]⟩
abbrev S4x2048x1 : Shape := ⟨3, ![4, 2048, 1]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  slices_S4x2048x2048_S4x2048x1024_0_0_0 : S4x2048x2048.Slices ![0, 0, 0] S4x2048x1024
  slices_S4x2048x2048_S4x2048x1024_0_0_1024 : S4x2048x2048.Slices ![0, 0, 1024] S4x2048x1024
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  reducesTo_S4x2048x2048_S4x2048_d2 : S4x2048x2048.ReducesTo [2] S4x2048
  reducesTo_S4x2048x1_S_d0_1_2 : S4x2048x1.ReducesTo [0, 1, 2] S_
  dot_S4x2048x1024_S4x2048x1024_S4x2048x2048_2_2_1_1_0_0_wf : DotDims.WF S4x2048x1024 S4x2048x1024 S4x2048x2048 [2] [2] [1] [1] [0] [0]

variable [Facts]

def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def fn_part1 {F : FTy → Type} [FloatOps F] (main_v3 : IVec S_ 1) (main_v16 : FVec F S4x2048x1 .f32) (main_v17 : FVec F S4x2048x1 .f32) : IVec S_ 1 :=
  let main_v18 : FVec F S4x2048x1 .f32 := addf main_v16 main_v17
  let main_cst_4 : FVec F S_ .f32 := constant S_ .f32 0x00000000#32
  let main_v19 : FVec F S4x2048x1 .f32 := broadcastInDim S4x2048x1 ![] bcast_S_S4x2048x1 main_cst_4
  let main_v20 : IVec S4x2048x1 1 := cmpf .une main_v18 main_v19
  let main_c_5 : IVec S_ 1 := constantI S_ 1 1#1
  let main_v21 : IVec S_ 1 := (fun x v => Host.reduce IntOp.andi x v reducesTo_S4x2048x1_S_d0_1_2 h_S_) main_v20 main_c_5
  let main_v22 : IVec S_ 1 := andi main_v3 main_v21
  main_v22

def fn {F : FTy → Type} [FloatOps F] (main_arg0 : FVec F S4x2048x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x1024 .f32 := (extractStridedSlice S4x2048x1024 ![0, 0, 0] · slices_S4x2048x2048_S4x2048x1024_0_0_0) main_arg0
  let main_v5 : FVec F S4x2048x1024 .f32 := (extractStridedSlice S4x2048x1024 ![0, 0, 1024] · slices_S4x2048x2048_S4x2048x1024_0_0_1024) main_arg0
  let main_v6 : FVec F S4x2048x1024 .f32 := mulf main_v4 main_v4
  let main_cst_0 : FVec F S_ .f32 := constant S_ .f32 0x00000000#32
  let main_v7 : FVec F S4x2048 .f32 := (fun x v => Host.reduceAdd x v reducesTo_S4x2048x1024_S4x2048_d2 h_S_) main_v6 main_cst_0
  let main_v8 : FVec F S4x2048x1 .f32 := broadcastInDim S4x2048x1 ![0, 1] bcast_S4x2048_S4x2048x1_0_1 main_v7
  let main_cst_1 : FVec F S_ .f32 := constant S_ .f32 0x358637BD#32
  let main_v9 : FVec F S4x2048x1 .f32 := broadcastInDim S4x2048x1 ![] bcast_S_S4x2048x1 main_cst_1
  let main_v10 : FVec F S4x2048x1 .f32 := addf main_v8 main_v9
  let main_v11 : FVec F S4x2048x1 .f32 := Host.sqrt main_v10
  let main_v12 : FVec F S4x2048x1024 .f32 := broadcastInDim S4x2048x1024 ![0, 1, 2] bcast_S4x2048x1_S4x2048x1024_0_1_2 main_v11
  let main_v13 : FVec F S4x2048x1024 .f32 := Host.divf main_v4 main_v12
  let main_v14 : FVec F S4x2048x2048 .f32 := (fun l r => Host.dotGeneral dot_S4x2048x1024_S4x2048x1024_S4x2048x2048_2_2_1_1_0_0 none l r) main_v13 main_v13
  let main_cst_2 : FVec F S_ .f32 := constant S_ .f32 0x00000000#32
  let main_v15 : FVec F S4x2048 .f32 := (fun x v => Host.reduceAdd x v reducesTo_S4x2048x2048_S4x2048_d2 h_S_) main_v14 main_cst_2
  let main_v16 : FVec F S4x2048x1 .f32 := broadcastInDim S4x2048x1 ![0, 1] bcast_S4x2048_S4x2048x1_0_1 main_v15
  let main_cst_3 : FVec F S_ .f32 := constant S_ .f32 0x358637BD#32
  let main_v17 : FVec F S4x2048x1 .f32 := broadcastInDim S4x2048x1 ![] bcast_S_S4x2048x1 main_cst_3
  fn_part1 (F := F) main_v3 main_v16 main_v17
-- ==== Kernel.lean ====
abbrev S4x2048x2048 : Shape := ⟨3, ![4, 2048, 2048]⟩
abbrev S4x2048x1024 : Shape := ⟨3, ![4, 2048, 1024]⟩
abbrev S1x1024x1024 : Shape := ⟨3, ![1, 1024, 1024]⟩
abbrev S1x256x1024 : Shape := ⟨3, ![1, 256, 1024]⟩
abbrev S1024x1024 : Shape := ⟨2, ![1024, 1024]⟩
abbrev S1024x1 : Shape := ⟨2, ![1024, 1]⟩
abbrev S1024 : Shape := ⟨1, ![1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 2
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1024x1, .f32⟩
  | .local _ .vmem, ⟨10, _⟩ => ⟨S1024x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v32 : BitVec 1 := Scalar.cmpi .eq arg2 c7_i32
  let v33 : BitVec 32 := Scalar.extui v32
  let c0_i32_17 : BitVec 32 := 0#32
  let v34 : BitVec 1 := Scalar.cmpi .ne v33 c0_i32_17
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  transposes_S256x1024_p1_0_S1024x256 : S256x1024.Transposes [1, 0] S1024x256
  reduces_S1024x256_S1024 : S1024x256.Reduces [1] S1024
  shapeCasts_S1024x1024_S1x1024x1024 : S1024x1024.ShapeCasts S1x1024x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x2048.size a
  hwx0_0 : ∀ i : grid0.Coords, EltTy.bits .f32 = 32 ∨ (Rect.block (s := S4x2048x2048) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x2048x2048.size a
  hwx0_1 : ∀ i : grid0.Coords, EltTy.bits .f32 = 32 ∨ (Rect.block (s := S4x2048x2048) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x2048x2048.size a
  hwx0_2 : ∀ i : grid0.Coords, EltTy.bits .f32 = 32 ∨ (Rect.block (s := S4x2048x2048) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x2048x1024.size a
  hwx0_3 : ∀ i : grid0.Coords, EltTy.bits .f32 = 32 ∨ (Rect.block (s := S4x2048x1024) S1x1024x1024.size (cc0_transform_3 i) (hinb0_3 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x1, .f32⟩
  | .hbm, ⟨11, _⟩ => ⟨S4x2048x1024, .f32⟩
  | .hbm, ⟨12, _⟩ => ⟨S4x2048x1024, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x1024, .f32⟩
  | .hbm, ⟨23, _⟩ => ⟨S4x2048x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  slices_S4x2048x2048_S4x2048x1024_0_0_0 : S4x2048x2048.Slices ![0, 0, 0] S4x2048x1024
  slices_S4x2048x2048_S4x2048x1024_0_0_1024 : S4x2048x2048.Slices ![0, 0, 1024] S4x2048x1024
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  reducesTo_S4x2048x2048_S4x2048_d2 : S4x2048x2048.ReducesTo [2] S4x2048
  bcast_S4x2048x1_S4x2048x2048_0_1_2 : S4x2048x1.BroadcastsInDim S4x2048x2048 (![0, 1, 2] : Fin 3 → Fin S4x2048x2048.rank)
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.LibSharedFrameTrack.lean ====
/-
  A frame run for a one-region kernel whose INPUT windows may share an array (one array handed to the kernel through
  several `in_specs`), with no semaphore of its own, that CARRIES VALUES IN SCRATCH from one grid point to the next
  (an accumulator reset at the first step of a reduction axis, added to at every step, read out at the last).

  The region invariant `Φ t` of the proof data is then not the scoped rest alone: at point `t` it names what the
  scratch buffers hold there. Two entailments connect it to the launch: before the first point the scoped buffers no
  window stages hold anything, and that must give `Φ 0` (`hin`); after the last point `Φ` must give them back at
  some contents (`hout`). Everything else is as when the arrays are distinct: the buffer behind a shared array is held
  whole at the full share when the region is entered and is dealt among the windows that read it, each at the share the
  proof data's `q` names (`hsplit`); every array of the pipeline ends at what the library computes from the proof
  data (`Dat.arrAt … N`) and every other unscoped buffer at what it held when the region was entered.

  The region is continued by the return: a program with host operations AFTER the region is outside this statement.
-/
import Idealize.ShloMosaic.Lib.Pipeline.Frame

noncomputable section

namespace SharedFrameTrack

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- THE FRAME RUN when input windows may share an array and the body carries values in scratch. At the compiled
    mesh, from any memory with zero counters, every weakly fair execution of @main on the TensorCores terminates, and
    every final state has every array of the pipeline at `Dat.arrAt … N` and every other unscoped buffer at its
    region-entry contents `V`. The certificate supplies the proof data, whose invariant `Φ` follows the scratch
    point by point; that the scoped rest yields `Φ 0` (`hin`) and `Φ` after the last point yields the scoped rest
    (`hout`); the body obligation; @main up to the region (`hmain`, `V`); and how the buffers behind the arrays,
    whole at the full share at `V`, make the proof data's arrays at entry (`hsplit`). -/
theorem θ_run_frame_shared_track (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (Ix := Unit) (Name := ℕ) (U := UR sig nD τ) (Lvl := ℕ) (cfgs p).spec c (V c) ⊢ (dats p c).arrays ((dats p c).arrAt · 0))
    (hin : ∀ c, scopedRest (Ix := Unit) (Name := ℕ) (U := UR sig nD τ) (Lvl := ℕ) (Val := Val) (cfgs p).spec c ⊢ (dats p c).Φ 0)
    (hout : ∀ c, (dats p c).Φ (Fin.last (cfgs p).N) ⊢ scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => (show iprop(emp ∗ scopedRest (Ix := Unit) (Name := ℕ) (U := UR sig nD τ) (Lvl := ℕ) (Val := Val) (cfgs p).spec c)
        ⊢ scopedRest (Ix := Unit) (Name := ℕ) (U := UR sig nD τ) (Lvl := ℕ) (Val := Val) (cfgs p).spec c from by
          iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end SharedFrameTrack

end
-- ==== Proof.KFrameRuns.lean ====
/-
  What the three runs of the kernel body share.

  The grid is 4 × 2 × 8: a batch, a tile of 1024 query rows, and a tile of 256 key rows (the innermost axis). The body
  keeps three buffers of its own between points: the mixture accumulator [1024, 1024], the row sums [1024, 1] and the
  normalised query rows [1024, 1024]. At the first key tile (points ≡ 0 mod 8) it clears the first two and computes the
  third; at every point it adds one tile's similarities and their products with the key rows; at the last key tile
  (points ≡ 7 mod 8) it divides, gates and stores the output block. So a point is in one of three cases, decided by
  the innermost coordinate alone. The output's staging buffer is untouched, and not written back, except in the last.
  All three input windows stage blocks of the one argument array.
-/
import proofs.«163894_j57870389346593_2_alg».proof.Proof.Gen.Kernel.Launch
import proofs.«163894_j57870389346593_2_alg».proof.Proof.Gen.Kernel.Skeleton
import proofs.«163894_j57870389346593_2_alg».proof.Proof.Gen.Kernel.Points
import proofs.«163894_j57870389346593_2_alg».proof.Proof.LibSharedFrameTrack
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- A core's buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    point has the same block index as the one before it), for any proof data over the launch contents whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, in closed form over the grid -/

/-- "This is the first key tile": the body's first condition, from the grid coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last key tile": the body's second condition. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last key tile nothing is stored into the output's staging buffer, and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last key tile the output block is stored. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The three buffers the body keeps between points: the mixture accumulator, the row sums, the normalised query rows. -/
abbrev scM0_0 : Memref sig .tc .vmem S1024x1024 .f32 := Memref.whole cc0_scratch0
abbrev scM0_1 : Memref sig .tc .vmem S1024x1 .f32 := Memref.whole cc0_scratch1
abbrev scM0_2 : Memref sig .tc .vmem S1024x1024 .bf16 := Memref.whole cc0_scratch2
/-- The same as views, through which their contents are stated. -/
abbrev VS0_0 : View sig .tc .vmem S1024x1024 .f32 := scM0_0.view
abbrev VS0_1 : View sig .tc .vmem S1024x1 .f32 := scM0_1.view
abbrev VS0_2 : View sig .tc .vmem S1024x1024 .bf16 := scM0_2.view
/-- One staging buffer of the output window, through which what the last case stores is stated. -/
abbrev VO0_3 : View sig .tc .vmem S1x1024x1024 .f32 := (Memref.whole cc0_stg3_0 : Memref sig .tc .vmem S1x1024x1024 .f32).view

/-- The scoped buffers that are no staging buffer, as the three memrefs each owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.Kernel.Hand

end
-- ==== Proof.KRunA.lean ====
/-
  The body at the first key tile of a row of the grid: it clears the mixture and the row sums, computes the
  normalised query rows of its block and keeps them, and then adds the first tile's similarities and products as at
  every point. Whatever the three kept buffers held before is overwritten.
-/
import proofs.«163894_j57870389346593_2_alg».proof.Proof.KFrameRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The first case. On whole memrefs — the three input blocks at their contents, the output's buffer at contents
    handed back untouched, the three kept buffers at anything — the body runs to the end holding the inputs and the
    output's buffer as they were and each kept buffer with the stored pieces written; the pieces are what the run finds. -/
noncomputable def kernelRun0_A (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1x1024x1024 .f32) (x1 : Vec F S1x256x1024 .f32) (x2 : Vec F S1x1024x1024 .f32) :
    Σ' (LS0 : List (View.Piece (Elt F) S1024x1024 .f32)) (LS1 : List (View.Piece (Elt F) S1024x1 .f32)), { LS2 : List (View.Piece (Elt F) S1024x1024 .bf16) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, ?_, ?_, fun xi3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.Kernel.Hand

end
-- ==== Proof.KRunB.lean ====
/-
  The body at a point that is neither the first nor the last key tile of its row of the grid: it reads the
  normalised query rows kept from the first tile, adds this tile's similarities to the row sums and their products
  with the key rows to the mixture, and touches nothing else.
-/
import proofs.«163894_j57870389346593_2_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The middle case. On whole memrefs — the three input blocks at their contents, the output's buffer at contents
    handed back untouched, the three kept buffers at what the point before left — the body runs to the end holding
    the inputs, the output's buffer and the normalised query rows as they were, and the mixture and the row sums
    with the stored pieces written; the pieces are what the run finds. -/
noncomputable def kernelRun0_B (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1x1024x1024 .f32) (x1 : Vec F S1x256x1024 .f32) (x2 : Vec F S1x1024x1024 .f32)
    (xs0 : Vec F S1024x1024 .f32) (xs1 : Vec F S1024x1 .f32) (xs2 : Vec F S1024x1024 .bf16) :
    Σ' (LS0 : List (View.Piece (Elt F) S1024x1024 .f32)), { LS1 : List (View.Piece (Elt F) S1024x1 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ owns (c : Thread nD τ) arg9 fullShare xs2) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, ?_, fun xi3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; isplitr; · ipureintro; exact harg9.read_unread _
    iexact HS2

end Cert.Kernel.Hand

end
-- ==== Proof.KRunC.lean ====
/-
  The body at the last key tile of a row of the grid: after the last tile's similarities and products are added, the
  mixture is divided by (row sum + ε), gated by the second half's block, and stored as the output block.
-/
import proofs.«163894_j57870389346593_2_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The last case. On whole memrefs — the three input blocks at their contents, the output's buffer at anything,
    the three kept buffers at what the point before left — the body runs to the end holding the inputs and the
    normalised query rows as they were, and the output's buffer, the mixture and the row sums with the stored pieces
    written; the pieces are what the run finds. -/
noncomputable def kernelRun0_C (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1x1024x1024 .f32) (x1 : Vec F S1x256x1024 .f32) (x2 : Vec F S1x1024x1024 .f32)
    (xs0 : Vec F S1024x1024 .f32) (xs1 : Vec F S1024x1 .f32) (xs2 : Vec F S1024x1024 .bf16) :
    Σ' (L3 : List (View.Piece (Elt F) S1x1024x1024 .f32)) (LS0 : List (View.Piece (Elt F) S1024x1024 .f32)), { LS1 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ owns (c : Thread nD τ) arg9 fullShare xs2) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    iexists _; isplitr; · ipureintro; exact harg9.read_unread _
    iexact HS2

end Cert.Kernel.Hand

end
-- ==== Proof.KFramePieces.lean ====
/-
  What each of the three cases of the body leaves in the buffers it stores into, read back from the stored pieces,
  and, by recursion on the grid point, what the output's staging buffer and the three kept buffers hold after every
  point: a first key tile starts afresh from its own blocks, any other point continues from the point before.
-/
import proofs.«163894_j57870389346593_2_alg».proof.Proof.KRunC
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first case leaves in the mixture accumulator: the stored pieces cover the buffer. -/
theorem scover0_A_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) (y : S1024x1024.Idx) :
    ∃ pc ∈ (kernelRun0_A c i arg3 harg3 arg4 harg4 arg5 harg5 arg6 harg6 arg7 harg7 arg8 harg8 arg9 harg9 hc0 hc1 x0 x1 x2).1, y ∈ pc.1.set :=
  View.cover_of_tiledL (kernelRun0_A c i arg3 harg3 arg4 harg4 arg5 harg5 arg6 harg6 arg7 harg7 arg8 harg8 arg9 harg9 hc0 hc1 x0 x1 x2).1 S1024x1024.size (by sl_kernel_rfl) y
/-- What the first case leaves in the mixture accumulator: the pieces read back. -/
def sout0_A_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) : Vec F S1024x1024 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2).1)

/-- What the first case leaves in the row sums: the stored pieces cover the buffer. -/
theorem scover0_A_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) (y : S1024x1.Idx) :
    ∃ pc ∈ (kernelRun0_A c i arg3 harg3 arg4 harg4 arg5 harg5 arg6 harg6 arg7 harg7 arg8 harg8 arg9 harg9 hc0 hc1 x0 x1 x2).2.1, y ∈ pc.1.set :=
  View.cover_of_tiledL (kernelRun0_A c i arg3 harg3 arg4 harg4 arg5 harg5 arg6 harg6 arg7 harg7 arg8 harg8 arg9 harg9 hc0 hc1 x0 x1 x2).2.1 S1024x1.size (by sl_kernel_rfl) y
/-- What the first case leaves in the row sums: the pieces read back. -/
def sout0_A_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) : Vec F S1024x1 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2).2.1)

/-- What the first case leaves in the normalised query rows: the stored pieces cover the buffer. -/
theorem scover0_A_2 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) (y : S1024x1024.Idx) :
    ∃ pc ∈ (kernelRun0_A c i arg3 harg3 arg4 harg4 arg5 harg5 arg6 harg6 arg7 harg7 arg8 harg8 arg9 harg9 hc0 hc1 x0 x1 x2).2.2.1, y ∈ pc.1.set :=
  View.cover_of_tiledL (kernelRun0_A c i arg3 harg3 arg4 harg4 arg5 harg5 arg6 harg6 arg7 harg7 arg8 harg8 arg9 harg9 hc0 hc1 x0 x1 x2).2.2.1 S1024x1024.size (by sl_kernel_rfl) y
/-- What the first case leaves in the normalised query rows: the pieces read back. -/
def sout0_A_2 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) : Vec F S1024x1024 .bf16 :=
  VS0_2.read (Elt F) (VS0_2.writes (Elt F) VS0_2.junk (kernelRun0_A c i arg3 harg3 arg4 harg4 arg5 harg5 arg6 harg6 arg7 harg7 arg8 harg8 arg9 harg9 hc0 hc1 x0 x1 x2).2.2.1)

/-- What the middle case leaves in the mixture accumulator: the stored pieces cover the buffer. -/
theorem scover0_B_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) (y : S1024x1024.Idx) :
    ∃ pc ∈ (kernelRun0_B c i arg3 harg3 arg4 harg4 arg5 harg5 arg6 harg6 arg7 harg7 arg8 harg8 arg9 harg9 hc0 hc1 x0 x1 x2 xs0 xs1 xs2).1, y ∈ pc.1.set :=
  View.cover_of_tiledL (kernelRun0_B c i arg3 harg3 arg4 harg4 arg5 harg5 arg6 harg6 arg7 harg7 arg8 harg8 arg9 harg9 hc0 hc1 x0 x1 x2 xs0 xs1 xs2).1 S1024x1024.size (by sl_kernel_rfl) y
/-- What the middle case leaves in the mixture accumulator: the pieces read back. -/
def sout0_B_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) : Vec F S1024x1024 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 xs0 xs1 xs2).1)

/-- What the middle case leaves in the row sums: the stored pieces cover the buffer. -/
theorem scover0_B_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) (y : S1024x1.Idx) :
    ∃ pc ∈ (kernelRun0_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.1 S1024x1.size (by sl_kernel_rfl) y
/-- What the middle case leaves in the row sums: the pieces read back. -/
def sout0_B_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) : Vec F S1024x1 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 xs0 xs1 xs2).2.1)

/-- What the last case leaves in the output's staging buffer: the stored pieces cover the buffer. -/
theorem cover0_C_3 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) (y : S1x1024x1024.Idx) :
    ∃ pc ∈ (kernelRun0_C c i arg3 harg3 arg4 harg4 arg5 harg5 arg6 harg6 arg7 harg7 arg8 harg8 arg9 harg9 hc0 hc1 x0 x1 x2 xs0 xs1 xs2).1, y ∈ pc.1.set :=
  View.cover_of_tiledL (kernelRun0_C c i arg3 harg3 arg4 harg4 arg5 harg5 arg6 harg6 arg7 harg7 arg8 harg8 arg9 harg9 hc0 hc1 x0 x1 x2 xs0 xs1 xs2).1 S1x1024x1024.size (by sl_kernel_rfl) y
/-- What the last case leaves in the output's staging buffer: the pieces read back. -/
def out0_C_3 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) : Vec F S1x1024x1024 .f32 :=
  VO0_3.read (Elt F) (VO0_3.writes (Elt F) VO0_3.junk (kernelRun0_C c i arg3 harg3 arg4 harg4 arg5 harg5 arg6 harg6 arg7 harg7 arg8 harg8 arg9 harg9 hc0 hc1 x0 x1 x2 xs0 xs1 xs2).1)

/-- What the last case leaves in the mixture accumulator: the stored pieces cover the buffer. -/
theorem scover0_C_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) (y : S1024x1024.Idx) :
    ∃ pc ∈ (kernelRun0_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun0_C c i arg3 harg3 arg4 harg4 arg5 harg5 arg6 harg6 arg7 harg7 arg8 harg8 arg9 harg9 hc0 hc1 x0 x1 x2 xs0 xs1 xs2).2.1 S1024x1024.size (by sl_kernel_rfl) y
/-- What the last case leaves in the mixture accumulator: the pieces read back. -/
def sout0_C_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) : Vec F S1024x1024 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 xs0 xs1 xs2).2.1)

/-- What the last case leaves in the row sums: the stored pieces cover the buffer. -/
theorem scover0_C_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) (y : S1024x1.Idx) :
    ∃ pc ∈ (kernelRun0_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_C c i arg3 harg3 arg4 harg4 arg5 harg5 arg6 harg6 arg7 harg7 arg8 harg8 arg9 harg9 hc0 hc1 x0 x1 x2 xs0 xs1 xs2).2.2.1 S1024x1.size (by sl_kernel_rfl) y
/-- What the last case leaves in the row sums: the pieces read back. -/
def sout0_C_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) : Vec F S1024x1 .f32 :=
  VS0_1.read (Elt F) (VS0_1.writes (Elt F) VS0_1.junk (kernelRun0_C c i arg3 harg3 arg4 harg4 arg5 harg5 arg6 harg6 arg7 harg7 arg8 harg8 arg9 harg9 hc0 hc1 x0 x1 x2 xs0 xs1 xs2).2.2.1)

/-! ## What the buffers hold after each point -/

/-- A placeholder for the output's staging buffer at the points that store nothing into it: nothing consults it,
    since there the buffer is neither written back nor read. -/
def outJunk : Vec F S1x1024x1024 .f32 := VO0_3.read (Elt F) VO0_3.junk

/-- After the body at position `n`: the output's staging buffer, the mixture accumulator, the row sums, the normalised
    query rows. A first key tile starts afresh from its own blocks; any other point continues from the point before. -/
def outsAt0 (c : Dev nD) : (n : ℕ) → n < cfg0.N → Vec F S1x1024x1024 .f32 × Vec F S1024x1024 .f32 × Vec F S1024x1 .f32 × Vec F S1024x1024 .bf16
  | 0, hn => (outJunk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      (outJunk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.2.2)
      else
        (outJunk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.2.2)

/-- At a first key tile. -/
theorem outsAt0_A (c : Dev nD) (t : Fin cfg0.N) (h0 : t.val % 8 = 0) (h1 : ¬t.val % 8 = 7) :
    outsAt0 m c t.val t.isLt = (outJunk, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans rfl

/-- At a point that is neither a first nor a last key tile: over what the point before left. -/
theorem outsAt0_B (c : Dev nD) (t : Fin cfg0.N) (h0 : ¬t.val % 8 = 0) (h1 : ¬t.val % 8 = 7) :
    outsAt0 m c t.val t.isLt = (outJunk, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) ((outsAt0 m c (t.val - 1) (Nat.lt_of_le_of_lt (Nat.sub_le _ _) t.isLt))).2.1 ((outsAt0 m c (t.val - 1) (Nat.lt_of_le_of_lt (Nat.sub_le _ _) t.isLt))).2.2.1 ((outsAt0 m c (t.val - 1) (Nat.lt_of_le_of_lt (Nat.sub_le _ _) t.isLt))).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) ((outsAt0 m c (t.val - 1) (Nat.lt_of_le_of_lt (Nat.sub_le _ _) t.isLt))).2.1 ((outsAt0 m c (t.val - 1) (Nat.lt_of_le_of_lt (Nat.sub_le _ _) t.isLt))).2.2.1 ((outsAt0 m c (t.val - 1) (Nat.lt_of_le_of_lt (Nat.sub_le _ _) t.isLt))).2.2.2, ((outsAt0 m c (t.val - 1) (Nat.lt_of_le_of_lt (Nat.sub_le _ _) t.isLt))).2.2.2) := by
  obtain ⟨n, hn⟩ := t
  cases n with
  | zero => exact (by exfalso; (try dsimp only at h0); exact absurd (Nat.zero_mod _) h0)
  | succ n => exact (dif_neg h0).trans ((dif_neg h1).trans rfl)

/-- At a last key tile: over what the point before left. -/
theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt))).2.1 ((outsAt0 m c (t.val - 1) (Nat.lt_of_le_of_lt (Nat.sub_le _ _) t.isLt))).2.2.1 ((outsAt0 m c (t.val - 1) (Nat.lt_of_le_of_lt (Nat.sub_le _ _) t.isLt))).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt))).2.1 ((outsAt0 m c (t.val - 1) (Nat.lt_of_le_of_lt (Nat.sub_le _ _) t.isLt))).2.2.1 ((outsAt0 m c (t.val - 1) (Nat.lt_of_le_of_lt (Nat.sub_le _ _) t.isLt))).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt))).2.1 ((outsAt0 m c (t.val - 1) (Nat.lt_of_le_of_lt (Nat.sub_le _ _) t.isLt))).2.2.1 ((outsAt0 m c (t.val - 1) (Nat.lt_of_le_of_lt (Nat.sub_le _ _) t.isLt))).2.2.2, ((outsAt0 m c (t.val - 1) (Nat.lt_of_le_of_lt (Nat.sub_le _ _) t.isLt))).2.2.2) := by
  obtain ⟨n, hn⟩ := t
  cases n with
  | zero => exact (by exfalso; (try dsimp only at h0); exact absurd (Nat.zero_mod _) h0)
  | succ n => exact (dif_neg h0).trans ((dif_pos h1).trans rfl)

end Cert.Kernel.Hand

end
-- ==== Proof.KDeal.lean ====
import proofs.«163894_j57870389346593_2_alg».proof.Proof.KFrameRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the three input windows hold the one argument array at: a half and two quarters. -/
def qs : Fin 4 → PosShare TreeShare
  | 0 => (fullShare : PosShare TreeShare).left
  | 1 => (fullShare : PosShare TreeShare).right.left
  | 2 => (fullShare : PosShare TreeShare).right.right
  | 3 => fullShare

/-- The windows' arrays lie in two buffers: the argument and the result. -/
theorem arrRef_image0 : Finset.univ.image (Pipeline.arrRef spec0) = [main_arg0, main_v0].toFinset := by decide

/-- A buffer held whole at a share is, read through the view of the whole buffer, that view's elements held at the share. -/
theorem whole_of (c : Dev nD) (b : Ref sig .tc) (q : PosShare TreeShare) (f : Buf (Elt F) ((c.tc : Thread nD τ).loc b)) :
    (((c.tc : Thread nD τ).loc b) ↦{q} f : sProp 𝕄)
      ⊢ ((Memref.whole b).view.loc (c.tc : Thread nD τ) ↦[(Memref.whole b).view.set]{q} f : sProp 𝕄) := by
  simp only [Memref.view_whole, View.set_whole]
  exact .rfl

/-- The argument array, whole at the full share, is the same array held three times at those shares; the result
    array is held as it is. -/
theorem deal (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      ⊢ bigSep Finset.univ fun w : Fin 4 => ((cfg0.win w).arr.view.loc (c.tc : Thread nD τ) ↦[(cfg0.win w).arr.view.set]{if (cfg0.win w).isOut then fullShare else qs w} V (Pipeline.arrRef spec0 w) : sProp 𝕄) := by
  unfold Pipeline.arrBufs
  rw [bigSep_eq_bigSepL_of_eq [main_arg0, main_v0] arrRef_image0 (by decide), Gen.bigSep_W0]
  refine (show iprop((((c.tc : Thread nD τ).loc main_arg0) ↦{fullShare} V main_arg0) ∗ (((c.tc : Thread nD τ).loc main_v0) ↦{fullShare} V main_v0)) ⊢ _ from ?_)
  iintro ⟨HA, HO⟩
  ihave HA := (pointsTo_share (PosShare.mem_left_op_right fullShare)).1 $$ HA
  icases HA with ⟨H0, HR⟩
  ihave HR := (pointsTo_share (PosShare.mem_left_op_right (fullShare : PosShare TreeShare).right)).1 $$ HR
  icases HR with ⟨H1, H2⟩
  isplitl [H0]
  · iapply (whole_of c main_arg0 (qs 0) (V main_arg0)); iexact H0
  isplitl [H1]
  · iapply (whole_of c main_arg0 (qs 1) (V main_arg0)); iexact H1
  isplitl [H2]
  · iapply (whole_of c main_arg0 (qs 2) (V main_arg0)); iexact H2
  iapply (whole_of c main_v0 fullShare (V main_v0)); iexact HO

end Cert.Kernel.Hand

end
-- ==== Proof.KFrame.lean ====
/-
  The frame run of the kernel: every execution terminates, faults nowhere, and leaves the argument array as it was;
  and the result array ends at what the library computes from the proof data below.

  The region's invariant before a point is the three kept buffers at what the point before left in them (before the
  very first point: at anything). The body obligation is by cases on the innermost grid coordinate; each case is the
  corresponding run of the body. The one argument array is dealt among the three input windows at a half and two
  quarter shares.
-/
import proofs.«163894_j57870389346593_2_alg».proof.Proof.KFramePieces
import proofs.«163894_j57870389346593_2_alg».proof.Proof.KDeal

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's invariant before position `n`: before the first point the three kept buffers at anything;
    afterwards each at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) := by
  cases n with
  | zero => exact absurd rfl hz
  | succ n => rfl

/-! ## The proof data -/

/-- The proof data on core `c`: the arrays as launched; after the body each input's buffer at its block and the
    output's at `outsAt0`; the invariant `PhiS`; the argument array held at a half and two quarters; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks; the innermost coordinate says which case the point
    is in; the invariant hands the body the three kept buffers at what the point before left (at anything at the very
    first point) and takes them back at this point's contents; the output's buffer is handed back untouched except at a
    last key tile, where it is taken back at the stored block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · have h1 : ¬t.val % 8 = 7 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0 sout0_A_1 sout0_A_2; (try dsimp only)
    by_cases hz : t.val = 0
    · rw [PhiS_castSucc m c t, PhiS_zero m c _ _ hz, scopedRest0_owns]
      iintro ⟨⟨HS0, HS1, HS2⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        · unfold owns; iexists _; isplitr
          swap; · iexact HS2
          ipureintro; exact View.read_writes_of_cover _ _ _ _ _ (scover0_A_2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, HS1, HS2⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        · unfold owns; iexists _; isplitr
          swap; · iexact HS2
          ipureintro; exact View.read_writes_of_cover _ _ _ _ _ (scover0_A_2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0 sout0_C_1; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, HS2⟩
      isplitl [HS0 HS1 HS2]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _)
        iexact HS2
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, HS2⟩
      isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _)
        iexact HS2
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the kept buffers are at anything: the invariant there. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the kept buffers back, their contents forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro ⟨HS0, HS1, HS2⟩
  isplitl [HS0]; · iexists _; iexact HS0
  isplitl [HS1]; · iexists _; iexact HS1
  iexists _; iexact HS2

/-- The argument array, whole at the full share when the region is entered, dealt among the input windows. -/
theorem hsplit (c : Dev nD) : Pipeline.arrBufs (Ix := Unit) (Name := ℕ) (U := UR sig nD τ) (Lvl := ℕ) spec0 c (V m c) ⊢ (dats m 0 c).arrays ((dats m 0 c).arrAt · 0) :=
  deal (F := F) c (V m c)

/-! ## The run and the frame -/

set_option backward.isDefEq.respectTransparency.types false in
/-- Every weakly fair execution of @main terminates, and every final state has every array of the pipeline at what
    the library computes from the proof data. -/
theorem run_main : θ_run defs (onTc (τ := τ) (main (F := F))) (s₀ m ρ) (Pipeline.FramePost cfgs (dats m) 0 (V m)) :=
  SharedFrameTrack.θ_run_frame_shared_track cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- The argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

/-- The result array ends at the proof data's final contents of the output window's array, the argument as launched. -/
theorem run_result : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)) :=
  (θ_run defs _ _).mono (fun _ h c => ⟨(h c).1 3, ((h c).1 0).trans (((dats m 0 c).arrAt_in 0 rfl _).trans (A_eq m c 0))⟩) (run_main m ρ)

end Cert.Kernel.Hand

end
-- ==== Proof.FrameRuns.lean ====
/-
  What the three runs of the kernel body share.

  The grid is 4 × 2 × 8: a batch, a tile of 1024 query rows, and a tile of 256 key rows (the innermost axis). The body
  keeps three buffers of its own between points: the mixture accumulator [1024, 1024], the row sums [1024, 1] and the
  normalised query rows [1024, 1024]. At the first key tile (points ≡ 0 mod 8) it clears the first two and computes the
  third; at every point it adds one tile's similarities and their products with the key rows; at the last key tile
  (points ≡ 7 mod 8) it divides, gates and stores the output block. So a point is in one of three cases, decided by
  the innermost coordinate alone. The output's staging buffer is untouched, and not written back, except in the last.
  All three input windows stage blocks of the one argument array.
-/
import proofs.«163894_j57870389346593_2_alg».proof.Proof.Gen.KernelIdeal.Launch
import proofs.«163894_j57870389346593_2_alg».proof.Proof.Gen.KernelIdeal.Skeleton
import proofs.«163894_j57870389346593_2_alg».proof.Proof.Gen.KernelIdeal.Points
import proofs.«163894_j57870389346593_2_alg».proof.Proof.LibSharedFrameTrack
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- A core's buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    point has the same block index as the one before it), for any proof data over the launch contents whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, in closed form over the grid -/

/-- "This is the first key tile": the body's first condition, from the grid coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last key tile": the body's second condition. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last key tile nothing is stored into the output's staging buffer, and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last key tile the output block is stored. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The three buffers the body keeps between points: the mixture accumulator, the row sums, the normalised query rows. -/
abbrev scM0_0 : Memref sig .tc .vmem S1024x1024 .f32 := Memref.whole cc0_scratch0
abbrev scM0_1 : Memref sig .tc .vmem S1024x1 .f32 := Memref.whole cc0_scratch1
abbrev scM0_2 : Memref sig .tc .vmem S1024x1024 .bf16 := Memref.whole cc0_scratch2
/-- The same as views, through which their contents are stated. -/
abbrev VS0_0 : View sig .tc .vmem S1024x1024 .f32 := scM0_0.view
abbrev VS0_1 : View sig .tc .vmem S1024x1 .f32 := scM0_1.view
abbrev VS0_2 : View sig .tc .vmem S1024x1024 .bf16 := scM0_2.view
/-- One staging buffer of the output window, through which what the last case stores is stated. -/
abbrev VO0_3 : View sig .tc .vmem S1x1024x1024 .f32 := (Memref.whole cc0_stg3_0 : Memref sig .tc .vmem S1x1024x1024 .f32).view

/-- The scoped buffers that are no staging buffer, as the three memrefs each owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.KernelIdeal.Hand

end
-- ==== Proof.RunA.lean ====
/-
  The body at the first key tile of a row of the grid: it clears the mixture and the row sums, computes the
  normalised query rows of its block and keeps them, and then adds the first tile's similarities and products as at
  every point. Whatever the three kept buffers held before is overwritten.
-/
import proofs.«163894_j57870389346593_2_alg».proof.Proof.FrameRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The first case. On whole memrefs — the three input blocks at their contents, the output's buffer at contents
    handed back untouched, the three kept buffers at anything — the body runs to the end holding the inputs and the
    output's buffer as they were and each kept buffer with the stored pieces written; the pieces are what the run finds. -/
noncomputable def kernelRun0_A (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i)
    (x0 : Vec F S1x1024x1024 .f32) (x1 : Vec F S1x256x1024 .f32) (x2 : Vec F S1x1024x1024 .f32) :
    Σ' (LS0 : List (View.Piece (Elt F) S1024x1024 .f32)) (LS1 : List (View.Piece (Elt F) S1024x1 .f32)), { LS2 : List (View.Piece (Elt F) S1024x1024 .bf16) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, ?_, ?_, fun xi3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.KernelIdeal.Hand

end
-- ==== Proof.RunB.lean ====
/-
  The body at a point that is neither the first nor the last key tile of its row of the grid: it reads the
  normalised query rows kept from the first tile, adds this tile's similarities to the row sums and their products
  with the key rows to the mixture, and touches nothing else.
-/
import proofs.«163894_j57870389346593_2_alg».proof.Proof.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The middle case. On whole memrefs — the three input blocks at their contents, the output's buffer at contents
    handed back untouched, the three kept buffers at what the point before left — the body runs to the end holding
    the inputs, the output's buffer and the normalised query rows as they were, and the mixture and the row sums
    with the stored pieces written; the pieces are what the run finds. -/
noncomputable def kernelRun0_B (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i)
    (x0 : Vec F S1x1024x1024 .f32) (x1 : Vec F S1x256x1024 .f32) (x2 : Vec F S1x1024x1024 .f32)
    (xs0 : Vec F S1024x1024 .f32) (xs1 : Vec F S1024x1 .f32) (xs2 : Vec F S1024x1024 .bf16) :
    Σ' (LS0 : List (View.Piece (Elt F) S1024x1024 .f32)), { LS1 : List (View.Piece (Elt F) S1024x1 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ owns (c : Thread nD τ) arg9 fullShare xs2) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, ?_, fun xi3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; isplitr; · ipureintro; exact harg9.read_unread _
    iexact HS2

end Cert.KernelIdeal.Hand

end
-- ==== Proof.RunC.lean ====
/-
  The body at the last key tile of a row of the grid: after the last tile's similarities and products are added, the
  mixture is divided by (row sum + ε), gated by the second half's block, and stored as the output block.
-/
import proofs.«163894_j57870389346593_2_alg».proof.Proof.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The last case. On whole memrefs — the three input blocks at their contents, the output's buffer at anything,
    the three kept buffers at what the point before left — the body runs to the end holding the inputs and the
    normalised query rows as they were, and the output's buffer, the mixture and the row sums with the stored pieces
    written; the pieces are what the run finds. -/
noncomputable def kernelRun0_C (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i)
    (x0 : Vec F S1x1024x1024 .f32) (x1 : Vec F S1x256x1024 .f32) (x2 : Vec F S1x1024x1024 .f32)
    (xs0 : Vec F S1024x1024 .f32) (xs1 : Vec F S1024x1 .f32) (xs2 : Vec F S1024x1024 .bf16) :
    Σ' (L3 : List (View.Piece (Elt F) S1x1024x1024 .f32)) (LS0 : List (View.Piece (Elt F) S1024x1024 .f32)), { LS1 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ owns (c : Thread nD τ) arg9 fullShare xs2) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    iexists _; isplitr; · ipureintro; exact harg9.read_unread _
    iexact HS2

end Cert.KernelIdeal.Hand

end
-- ==== Proof.FramePieces.lean ====
/-
  What each of the three cases of the body leaves in the buffers it stores into, read back from the stored pieces,
  and, by recursion on the grid point, what the output's staging buffer and the three kept buffers hold after every
  point: a first key tile starts afresh from its own blocks, any other point continues from the point before.
-/
import proofs.«163894_j57870389346593_2_alg».proof.Proof.RunC
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first case leaves in the mixture accumulator: the stored pieces cover the buffer. -/
theorem scover0_A_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) (y : S1024x1024.Idx) :
    ∃ pc ∈ (kernelRun0_A c i arg3 harg3 arg4 harg4 arg5 harg5 arg6 harg6 arg7 harg7 arg8 harg8 arg9 harg9 hc0 hc1 x0 x1 x2).1, y ∈ pc.1.set :=
  View.cover_of_tiledL (kernelRun0_A c i arg3 harg3 arg4 harg4 arg5 harg5 arg6 harg6 arg7 harg7 arg8 harg8 arg9 harg9 hc0 hc1 x0 x1 x2).1 S1024x1024.size (by sl_kernel_rfl) y
/-- What the first case leaves in the mixture accumulator: the pieces read back. -/
def sout0_A_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) : Vec F S1024x1024 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2).1)

/-- What the first case leaves in the row sums: the stored pieces cover the buffer. -/
theorem scover0_A_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) (y : S1024x1.Idx) :
    ∃ pc ∈ (kernelRun0_A c i arg3 harg3 arg4 harg4 arg5 harg5 arg6 harg6 arg7 harg7 arg8 harg8 arg9 harg9 hc0 hc1 x0 x1 x2).2.1, y ∈ pc.1.set :=
  View.cover_of_tiledL (kernelRun0_A c i arg3 harg3 arg4 harg4 arg5 harg5 arg6 harg6 arg7 harg7 arg8 harg8 arg9 harg9 hc0 hc1 x0 x1 x2).2.1 S1024x1.size (by sl_kernel_rfl) y
/-- What the first case leaves in the row sums: the pieces read back. -/
def sout0_A_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) : Vec F S1024x1 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2).2.1)

/-- What the first case leaves in the normalised query rows: the stored pieces cover the buffer. -/
theorem scover0_A_2 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) (y : S1024x1024.Idx) :
    ∃ pc ∈ (kernelRun0_A c i arg3 harg3 arg4 harg4 arg5 harg5 arg6 harg6 arg7 harg7 arg8 harg8 arg9 harg9 hc0 hc1 x0 x1 x2).2.2.1, y ∈ pc.1.set :=
  View.cover_of_tiledL (kernelRun0_A c i arg3 harg3 arg4 harg4 arg5 harg5 arg6 harg6 arg7 harg7 arg8 harg8 arg9 harg9 hc0 hc1 x0 x1 x2).2.2.1 S1024x1024.size (by sl_kernel_rfl) y
/-- What the first case leaves in the normalised query rows: the pieces read back. -/
def sout0_A_2 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : cond0_0 i) (hc1 : ¬cond0_1 i) (x0 : Vec F S1x1024x1024 .f32) (x1 : Vec F S1x256x1024 .f32) (x2 : Vec F S1x1024x1024 .f32) : Vec F S1024x1024 .bf16 :=
  VS0_2.read (Elt F) (VS0_2.writes (Elt F) VS0_2.junk (kernelRun0_A c i arg3 harg3 arg4 harg4 arg5 harg5 arg6 harg6 arg7 harg7 arg8 harg8 arg9 harg9 hc0 hc1 x0 x1 x2).2.2.1)

/-- What the middle case leaves in the mixture accumulator: the stored pieces cover the buffer. -/
theorem scover0_B_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) (y : S1024x1024.Idx) :
    ∃ pc ∈ (kernelRun0_B c i arg3 harg3 arg4 harg4 arg5 harg5 arg6 harg6 arg7 harg7 arg8 harg8 arg9 harg9 hc0 hc1 x0 x1 x2 xs0 xs1 xs2).1, y ∈ pc.1.set :=
  View.cover_of_tiledL (kernelRun0_B c i arg3 harg3 arg4 harg4 arg5 harg5 arg6 harg6 arg7 harg7 arg8 harg8 arg9 harg9 hc0 hc1 x0 x1 x2 xs0 xs1 xs2).1 S1024x1024.size (by sl_kernel_rfl) y
/-- What the middle case leaves in the mixture accumulator: the pieces read back. -/
def sout0_B_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) : Vec F S1024x1024 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 xs0 xs1 xs2).1)

/-- What the middle case leaves in the row sums: the stored pieces cover the buffer. -/
theorem scover0_B_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) (y : S1024x1.Idx) :
    ∃ pc ∈ (kernelRun0_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.1 S1024x1.size (by sl_kernel_rfl) y
/-- What the middle case leaves in the row sums: the pieces read back. -/
def sout0_B_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : ¬cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) : Vec F S1024x1 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 xs0 xs1 xs2).2.1)

/-- What the last case leaves in the output's staging buffer: the stored pieces cover the buffer. -/
theorem cover0_C_3 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) (y : S1x1024x1024.Idx) :
    ∃ pc ∈ (kernelRun0_C c i arg3 harg3 arg4 harg4 arg5 harg5 arg6 harg6 arg7 harg7 arg8 harg8 arg9 harg9 hc0 hc1 x0 x1 x2 xs0 xs1 xs2).1, y ∈ pc.1.set :=
  View.cover_of_tiledL (kernelRun0_C c i arg3 harg3 arg4 harg4 arg5 harg5 arg6 harg6 arg7 harg7 arg8 harg8 arg9 harg9 hc0 hc1 x0 x1 x2 xs0 xs1 xs2).1 S1x1024x1024.size (by sl_kernel_rfl) y
/-- What the last case leaves in the output's staging buffer: the pieces read back. -/
def out0_C_3 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) : Vec F S1x1024x1024 .f32 :=
  VO0_3.read (Elt F) (VO0_3.writes (Elt F) VO0_3.junk (kernelRun0_C c i arg3 harg3 arg4 harg4 arg5 harg5 arg6 harg6 arg7 harg7 arg8 harg8 arg9 harg9 hc0 hc1 x0 x1 x2 xs0 xs1 xs2).1)

/-- What the last case leaves in the mixture accumulator: the stored pieces cover the buffer. -/
theorem scover0_C_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) (y : S1024x1024.Idx) :
    ∃ pc ∈ (kernelRun0_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun0_C c i arg3 harg3 arg4 harg4 arg5 harg5 arg6 harg6 arg7 harg7 arg8 harg8 arg9 harg9 hc0 hc1 x0 x1 x2 xs0 xs1 xs2).2.1 S1024x1024.size (by sl_kernel_rfl) y
/-- What the last case leaves in the mixture accumulator: the pieces read back. -/
def sout0_C_0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) : Vec F S1024x1024 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 xs0 xs1 xs2).2.1)

/-- What the last case leaves in the row sums: the stored pieces cover the buffer. -/
theorem scover0_C_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) (y : S1024x1.Idx) :
    ∃ pc ∈ (kernelRun0_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_C c i arg3 harg3 arg4 harg4 arg5 harg5 arg6 harg6 arg7 harg7 arg8 harg8 arg9 harg9 hc0 hc1 x0 x1 x2 xs0 xs1 xs2).2.2.1 S1024x1.size (by sl_kernel_rfl) y
/-- What the last case leaves in the row sums: the pieces read back. -/
def sout0_C_1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole) (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16) : Vec F S1024x1 .f32 :=
  VS0_1.read (Elt F) (VS0_1.writes (Elt F) VS0_1.junk (kernelRun0_C c i arg3 harg3 arg4 harg4 arg5 harg5 arg6 harg6 arg7 harg7 arg8 harg8 arg9 harg9 hc0 hc1 x0 x1 x2 xs0 xs1 xs2).2.2.1)

/-! ## What the buffers hold after each point -/

/-- A placeholder for the output's staging buffer at the points that store nothing into it: nothing consults it,
    since there the buffer is neither written back nor read. -/
def outJunk : Vec F S1x1024x1024 .f32 := VO0_3.read (Elt F) VO0_3.junk

/-- After the body at position `n`: the output's staging buffer, the mixture accumulator, the row sums, the normalised
    query rows. A first key tile starts afresh from its own blocks; any other point continues from the point before. -/
def outsAt0 (c : Dev nD) : (n : ℕ) → n < cfg0.N → Vec F S1x1024x1024 .f32 × Vec F S1024x1024 .f32 × Vec F S1024x1 .f32 × Vec F S1024x1024 .bf16
  | 0, hn => (outJunk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      (outJunk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.2.2)
      else
        (outJunk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.2.2)

/-- At a first key tile. -/
theorem outsAt0_A (c : Dev nD) (t : Fin cfg0.N) (h0 : t.val % 8 = 0) (h1 : ¬t.val % 8 = 7) :
    outsAt0 m c t.val t.isLt = (outJunk, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans rfl

/-- At a point that is neither a first nor a last key tile: over what the point before left. -/
theorem outsAt0_B (c : Dev nD) (t : Fin cfg0.N) (h0 : ¬t.val % 8 = 0) (h1 : ¬t.val % 8 = 7) :
    outsAt0 m c t.val t.isLt = (outJunk, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) ((outsAt0 m c (t.val - 1) (Nat.lt_of_le_of_lt (Nat.sub_le _ _) t.isLt))).2.1 ((outsAt0 m c (t.val - 1) (Nat.lt_of_le_of_lt (Nat.sub_le _ _) t.isLt))).2.2.1 ((outsAt0 m c (t.val - 1) (Nat.lt_of_le_of_lt (Nat.sub_le _ _) t.isLt))).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) ((outsAt0 m c (t.val - 1) (Nat.lt_of_le_of_lt (Nat.sub_le _ _) t.isLt))).2.1 ((outsAt0 m c (t.val - 1) (Nat.lt_of_le_of_lt (Nat.sub_le _ _) t.isLt))).2.2.1 ((outsAt0 m c (t.val - 1) (Nat.lt_of_le_of_lt (Nat.sub_le _ _) t.isLt))).2.2.2, ((outsAt0 m c (t.val - 1) (Nat.lt_of_le_of_lt (Nat.sub_le _ _) t.isLt))).2.2.2) := by
  obtain ⟨n, hn⟩ := t
  cases n with
  | zero => exact (by exfalso; (try dsimp only at h0); exact absurd (Nat.zero_mod _) h0)
  | succ n => exact (dif_neg h0).trans ((dif_neg h1).trans rfl)

/-- At a last key tile: over what the point before left. -/
theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt))).2.1 ((outsAt0 m c (t.val - 1) (Nat.lt_of_le_of_lt (Nat.sub_le _ _) t.isLt))).2.2.1 ((outsAt0 m c (t.val - 1) (Nat.lt_of_le_of_lt (Nat.sub_le _ _) t.isLt))).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt))).2.1 ((outsAt0 m c (t.val - 1) (Nat.lt_of_le_of_lt (Nat.sub_le _ _) t.isLt))).2.2.1 ((outsAt0 m c (t.val - 1) (Nat.lt_of_le_of_lt (Nat.sub_le _ _) t.isLt))).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt))).2.1 ((outsAt0 m c (t.val - 1) (Nat.lt_of_le_of_lt (Nat.sub_le _ _) t.isLt))).2.2.1 ((outsAt0 m c (t.val - 1) (Nat.lt_of_le_of_lt (Nat.sub_le _ _) t.isLt))).2.2.2, ((outsAt0 m c (t.val - 1) (Nat.lt_of_le_of_lt (Nat.sub_le _ _) t.isLt))).2.2.2) := by
  obtain ⟨n, hn⟩ := t
  cases n with
  | zero => exact (by exfalso; (try dsimp only at h0); exact absurd (Nat.zero_mod _) h0)
  | succ n => exact (dif_neg h0).trans ((dif_pos h1).trans rfl)

end Cert.KernelIdeal.Hand

end
-- ==== Proof.Deal.lean ====
import proofs.«163894_j57870389346593_2_alg».proof.Proof.FrameRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the three input windows hold the one argument array at: a half and two quarters. -/
def qs : Fin 4 → PosShare TreeShare
  | 0 => (fullShare : PosShare TreeShare).left
  | 1 => (fullShare : PosShare TreeShare).right.left
  | 2 => (fullShare : PosShare TreeShare).right.right
  | 3 => fullShare

/-- The windows' arrays lie in two buffers: the argument and the result. -/
theorem arrRef_image0 : Finset.univ.image (Pipeline.arrRef spec0) = [main_arg0, main_v0].toFinset := by decide

/-- A buffer held whole at a share is, read through the view of the whole buffer, that view's elements held at the share. -/
theorem whole_of (c : Dev nD) (b : Ref sig .tc) (q : PosShare TreeShare) (f : Buf (Elt F) ((c.tc : Thread nD τ).loc b)) :
    (((c.tc : Thread nD τ).loc b) ↦{q} f : sProp 𝕄)
      ⊢ ((Memref.whole b).view.loc (c.tc : Thread nD τ) ↦[(Memref.whole b).view.set]{q} f : sProp 𝕄) := by
  simp only [Memref.view_whole, View.set_whole]
  exact .rfl

/-- The argument array, whole at the full share, is the same array held three times at those shares; the result
    array is held as it is. -/
theorem deal (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      ⊢ bigSep Finset.univ fun w : Fin 4 => ((cfg0.win w).arr.view.loc (c.tc : Thread nD τ) ↦[(cfg0.win w).arr.view.set]{if (cfg0.win w).isOut then fullShare else qs w} V (Pipeline.arrRef spec0 w) : sProp 𝕄) := by
  unfold Pipeline.arrBufs
  rw [bigSep_eq_bigSepL_of_eq [main_arg0, main_v0] arrRef_image0 (by decide), Gen.bigSep_W0]
  refine (show iprop((((c.tc : Thread nD τ).loc main_arg0) ↦{fullShare} V main_arg0) ∗ (((c.tc : Thread nD τ).loc main_v0) ↦{fullShare} V main_v0)) ⊢ _ from ?_)
  iintro ⟨HA, HO⟩
  ihave HA := (pointsTo_share (PosShare.mem_left_op_right fullShare)).1 $$ HA
  icases HA with ⟨H0, HR⟩
  ihave HR := (pointsTo_share (PosShare.mem_left_op_right (fullShare : PosShare TreeShare).right)).1 $$ HR
  icases HR with ⟨H1, H2⟩
  isplitl [H0]
  · iapply (whole_of c main_arg0 (qs 0) (V main_arg0)); iexact H0
  isplitl [H1]
  · iapply (whole_of c main_arg0 (qs 1) (V main_arg0)); iexact H1
  isplitl [H2]
  · iapply (whole_of c main_arg0 (qs 2) (V main_arg0)); iexact H2
  iapply (whole_of c main_v0 fullShare (V main_v0)); iexact HO

end Cert.KernelIdeal.Hand

end
-- ==== Proof.Frame.lean ====
/-
  The frame run of the kernel: every execution terminates, faults nowhere, and leaves the argument array as it was;
  and the result array ends at what the library computes from the proof data below.

  The region's invariant before a point is the three kept buffers at what the point before left in them (before the
  very first point: at anything). The body obligation is by cases on the innermost grid coordinate; each case is the
  corresponding run of the body. The one argument array is dealt among the three input windows at a half and two
  quarter shares.
-/
import proofs.«163894_j57870389346593_2_alg».proof.Proof.FramePieces
import proofs.«163894_j57870389346593_2_alg».proof.Proof.Deal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's invariant before position `n`: before the first point the three kept buffers at anything;
    afterwards each at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) := by
  cases n with
  | zero => exact absurd rfl hz
  | succ n => rfl

/-! ## The proof data -/

/-- The proof data on core `c`: the arrays as launched; after the body each input's buffer at its block and the
    output's at `outsAt0`; the invariant `PhiS`; the argument array held at a half and two quarters; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks; the innermost coordinate says which case the point
    is in; the invariant hands the body the three kept buffers at what the point before left (at anything at the very
    first point) and takes them back at this point's contents; the output's buffer is handed back untouched except at a
    last key tile, where it is taken back at the stored block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · have h1 : ¬t.val % 8 = 7 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0 sout0_A_1 sout0_A_2; (try dsimp only)
    by_cases hz : t.val = 0
    · rw [PhiS_castSucc m c t, PhiS_zero m c _ _ hz, scopedRest0_owns]
      iintro ⟨⟨HS0, HS1, HS2⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        · unfold owns; iexists _; isplitr
          swap; · iexact HS2
          ipureintro; exact View.read_writes_of_cover _ _ _ _ _ (scover0_A_2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, HS1, HS2⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        · unfold owns; iexists _; isplitr
          swap; · iexact HS2
          ipureintro; exact View.read_writes_of_cover _ _ _ _ _ (scover0_A_2 c _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0 sout0_C_1; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, HS2⟩
      isplitl [HS0 HS1 HS2]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _)
        iexact HS2
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, HS2⟩
      isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _)
        iexact HS2
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the kept buffers are at anything: the invariant there. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the kept buffers back, their contents forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro ⟨HS0, HS1, HS2⟩
  isplitl [HS0]; · iexists _; iexact HS0
  isplitl [HS1]; · iexists _; iexact HS1
  iexists _; iexact HS2

/-- The argument array, whole at the full share when the region is entered, dealt among the input windows. -/
theorem hsplit (c : Dev nD) : Pipeline.arrBufs (Ix := Unit) (Name := ℕ) (U := UR sig nD τ) (Lvl := ℕ) spec0 c (V m c) ⊢ (dats m 0 c).arrays ((dats m 0 c).arrAt · 0) :=
  deal (F := F) c (V m c)

/-! ## The run and the frame -/

set_option backward.isDefEq.respectTransparency.types false in
/-- Every weakly fair execution of @main terminates, and every final state has every array of the pipeline at what
    the library computes from the proof data. -/
theorem run_main : θ_run defs (onTc (τ := τ) (main (F := F))) (s₀ m ρ) (Pipeline.FramePost cfgs (dats m) 0 (V m)) :=
  SharedFrameTrack.θ_run_frame_shared_track cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- The argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

/-- The result array ends at the proof data's final contents of the output window's array, the argument as launched. -/
theorem run_result : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)) :=
  (θ_run defs _ _).mono (fun _ h c => ⟨(h c).1 3, ((h c).1 0).trans (((dats m 0 c).arrAt_in 0 rfl _).trans (A_eq m c 0))⟩) (run_main m ρ)

end Cert.KernelIdeal.Hand

end
-- ==== Proof.Spec.lean ====
/-
  The mathematics of the claim, with no program in sight.

  The argument is one array X of shape [4, 2048, 2048] over the extended reals. Write, for a batch b, a row t and a
  column d < 1024,  x0 b t d = X[b, t, d]  (the first half of the last axis) and  x1 b t d = X[b, t, 1024 + d]
  (the second half), and let ε be the extended real the word 0x358637BD denotes (a positive dyadic).

  Both programs normalise the rows of x0, take all inner products of the normalised rows of one batch, sum each row
  of that similarity matrix, and mix the rows of x0 with the similarities divided by (row sum + ε); the result is
  gated by x1. They differ in two places only:
    * the normalisation: the kernel multiplies by  rsqrt (‖row‖² + ε),  the reference divides by  sqrt (‖row‖² + ε);
    * the quotient: the kernel divides the finished mixture  Σ_s sim(t,s)·x0(s,d)  by (row sum + ε) once,
      the reference divides every similarity first and mixes afterwards.
  `outK` is the kernel's form and `outR` the reference's. They agree where every entry of X is a real number and no
  (row sum + ε) is zero: then every quantity is a real number and the two differences are the laws
  y·(√r)⁻¹ = y/√r  and  (Σ_s a_s·y_s)/D = Σ_s (a_s/D)·y_s  of the real field.
-/
import Idealize.ShloMosaic.PureOps.Ideal
import Idealize.ShloMosaic.Lib.ValueIdx

noncomputable section

open scoped BigOperators

namespace Cert.Spec

open Idealize.ShloMosaic Idealize.ShloMosaic.ValueIdx

/-- The argument array, [4, 2048, 2048] over the extended reals. -/
abbrev Arr : Type := (⟨3, ![4, 2048, 2048]⟩ : Shape).Idx → EReal
/-- The result array, [4, 2048, 1024] over the extended reals. -/
abbrev Out : Type := (⟨3, ![4, 2048, 1024]⟩ : Shape).Idx → EReal

/-- The ε both programs add under the root and to the row sums: the extended real the f32 word denotes. -/
def eps : EReal := Ideal.ofBits .f32 0x358637BD#32

/-- Column d of the first half of the last axis. -/
def lo (d : Fin 1024) : Fin 2048 := ⟨d.val, by omega⟩
/-- Column d of the second half of the last axis. -/
def hi (d : Fin 1024) : Fin 2048 := ⟨1024 + d.val, by omega⟩

/-- The first half: the rows that are normalised, compared and mixed. -/
def x0 (X : Arr) (b : Fin 4) (t : Fin 2048) (d : Fin 1024) : EReal := X (ix3 b t (lo d))
/-- The second half: the gate. -/
def x1 (X : Arr) (b : Fin 4) (t : Fin 2048) (d : Fin 1024) : EReal := X (ix3 b t (hi d))

/-- The squared length of row t of x0. -/
def sq (X : Arr) (b : Fin 4) (t : Fin 2048) : EReal := ∑ d : Fin 1024, x0 X b t d * x0 X b t d

/-- The kernel's normalised row: times the reciprocal root. -/
def nK (X : Arr) (b : Fin 4) (t : Fin 2048) (d : Fin 1024) : EReal := x0 X b t d * Ideal.rsqrt (sq X b t + eps)
/-- The reference's normalised row: divided by the root. -/
def nR (X : Arr) (b : Fin 4) (t : Fin 2048) (d : Fin 1024) : EReal := Ideal.div (x0 X b t d) (Ideal.sqrt (sq X b t + eps))

/-- The similarity of rows t and s: the inner product of the normalised rows (kernel's normalisation). -/
def simK (X : Arr) (b : Fin 4) (t s : Fin 2048) : EReal := ∑ d : Fin 1024, nK X b t d * nK X b s d
/-- The same with the reference's normalisation. -/
def simR (X : Arr) (b : Fin 4) (t s : Fin 2048) : EReal := ∑ d : Fin 1024, nR X b t d * nR X b s d

/-- Row t's sum of similarities (kernel's normalisation). -/
def rowK (X : Arr) (b : Fin 4) (t : Fin 2048) : EReal := ∑ s : Fin 2048, simK X b t s
/-- The same with the reference's normalisation. -/
def rowR (X : Arr) (b : Fin 4) (t : Fin 2048) : EReal := ∑ s : Fin 2048, simR X b t s

/-- The kernel's result at (b, t, d): the mixture divided once by (row sum + ε), gated. -/
def outKAt (X : Arr) (b : Fin 4) (t : Fin 2048) (d : Fin 1024) : EReal :=
  Ideal.div (∑ s : Fin 2048, simK X b t s * x0 X b s d) (rowK X b t + eps) * x1 X b t d
/-- The reference's result at (b, t, d): every similarity divided by (row sum + ε), then mixed, gated. -/
def outRAt (X : Arr) (b : Fin 4) (t : Fin 2048) (d : Fin 1024) : EReal :=
  (∑ s : Fin 2048, Ideal.div (simR X b t s) (rowR X b t + eps) * x0 X b s d) * x1 X b t d

/-- The kernel's result as an array. -/
def outK (X : Arr) : Out := fun i => outKAt X (i 0) (i 1) (i 2)
/-- The reference's result as an array. -/
def outR (X : Arr) : Out := fun i => outRAt X (i 0) (i 1) (i 2)

end Cert.Spec

end
-- ==== Proof.BlockReads.lean ====
/-
  The four windows' blocks, read at explicit coordinates. The grid is 4 × 2 × 8, row-major: point t has batch t / 16,
  query tile (t / 8) % 2 and key tile t % 8. The query window and the gate window stage the 1024 rows of the query
  tile (first and second half of the last axis), the key window the 256 rows of the key tile (first half of the last
  axis), and the output window the 1024 rows of the query tile of the result array. A block's coordinate on an axis
  is always (block index) × (block size) + (coordinate inside the block); the block indices are decided once over
  the 64 grid points.
-/
import proofs.«163894_j57870389346593_2_alg».proof.Proof.FrameRuns
import proofs.«163894_j57870389346593_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The coordinates of a grid point -/

/-- A grid point is below 64. -/
theorem t_lt (t : Fin cfg0.N) : t.val < 64 := lt_of_lt_of_eq t.isLt N_0

/-- The batch of point t. -/
def bOf (t : Fin cfg0.N) : Fin 4 := ⟨t.val / 16, by have := t_lt t; omega⟩
/-- The query tile of point t. -/
def qOf (t : Fin cfg0.N) : Fin 2 := ⟨t.val / 8 % 2, by omega⟩
/-- The key tile of point t. -/
def kOf (t : Fin cfg0.N) : Fin 8 := ⟨t.val % 8, by omega⟩
/-- Row p of point t's query tile, as a row of the array. -/
def qRow (t : Fin cfg0.N) (p : Fin 1024) : Fin 2048 := ⟨1024 * (qOf t).val + p.val, by have := (qOf t).isLt; have := p.isLt; omega⟩
/-- Row j of point t's key tile, as a row of the array. -/
def kRow (t : Fin cfg0.N) (j : Fin 256) : Fin 2048 := ⟨256 * (kOf t).val + j.val, by have := (kOf t).isLt; have := j.isLt; omega⟩

/-! ## The block indices, decided over the grid -/

theorem idx_facts : ∀ t : Fin cfg0.N,
    (win0_0.index t (0 : Fin 3) = t.val / 16 ∧ win0_0.index t (1 : Fin 3) = t.val / 8 % 2 ∧ win0_0.index t (2 : Fin 3) = 0)
    ∧ (win0_1.index t (0 : Fin 3) = t.val / 16 ∧ win0_1.index t (1 : Fin 3) = t.val % 8 ∧ win0_1.index t (2 : Fin 3) = 0)
    ∧ (win0_2.index t (0 : Fin 3) = t.val / 16 ∧ win0_2.index t (1 : Fin 3) = t.val / 8 % 2 ∧ win0_2.index t (2 : Fin 3) = 1)
    ∧ (win0_3.index t (0 : Fin 3) = t.val / 16 ∧ win0_3.index t (1 : Fin 3) = t.val / 8 % 2 ∧ win0_3.index t (2 : Fin 3) = 0) :=
  (by decide +kernel : ∀ t : Fin grid0.N, _)

/-! ## Where a block's index lands in its array -/

theorem emb0_apply (t : Fin cfg0.N) (p d : Fin 1024) :
    ((cfg0.win 0).blk t).view.emb (ix3 0 p d) = ix3 (bOf t) (qRow t p) (Cert.Spec.lo d) := by
  obtain ⟨⟨e0, e1, e2⟩, -, -, -⟩ := idx_facts t
  funext a; apply Fin.ext
  match a with
  | ⟨0, _⟩ => show win0_0.index t (0 : Fin 3) * 1 + 1 * 0 = t.val / 16; omega
  | ⟨1, _⟩ => show win0_0.index t (1 : Fin 3) * 1024 + 1 * p.val = 1024 * (t.val / 8 % 2) + p.val; omega
  | ⟨2, _⟩ => show win0_0.index t (2 : Fin 3) * 1024 + 1 * d.val = d.val; omega

theorem emb1_apply (t : Fin cfg0.N) (j : Fin 256) (d : Fin 1024) :
    ((cfg0.win 1).blk t).view.emb (ix3 0 j d) = ix3 (bOf t) (kRow t j) (Cert.Spec.lo d) := by
  obtain ⟨-, ⟨e0, e1, e2⟩, -, -⟩ := idx_facts t
  funext a; apply Fin.ext
  match a with
  | ⟨0, _⟩ => show win0_1.index t (0 : Fin 3) * 1 + 1 * 0 = t.val / 16; omega
  | ⟨1, _⟩ => show win0_1.index t (1 : Fin 3) * 256 + 1 * j.val = 256 * (t.val % 8) + j.val; omega
  | ⟨2, _⟩ => show win0_1.index t (2 : Fin 3) * 1024 + 1 * d.val = d.val; omega

theorem emb2_apply (t : Fin cfg0.N) (p d : Fin 1024) :
    ((cfg0.win 2).blk t).view.emb (ix3 0 p d) = ix3 (bOf t) (qRow t p) (Cert.Spec.hi d) := by
  obtain ⟨-, -, ⟨e0, e1, e2⟩, -⟩ := idx_facts t
  funext a; apply Fin.ext
  match a with
  | ⟨0, _⟩ => show win0_2.index t (0 : Fin 3) * 1 + 1 * 0 = t.val / 16; omega
  | ⟨1, _⟩ => show win0_2.index t (1 : Fin 3) * 1024 + 1 * p.val = 1024 * (t.val / 8 % 2) + p.val; omega
  | ⟨2, _⟩ => show win0_2.index t (2 : Fin 3) * 1024 + 1 * d.val = 1024 + d.val; omega

/-- The output window's block index (0, p, d) at point t is (batch, row of the query tile, d) of the result array. -/
theorem emb3_apply (t : Fin cfg0.N) (p d : Fin 1024) :
    ((cfg0.win 3).blk t).view.emb (ix3 0 p d) = ix3 (bOf t) (qRow t p) d := by
  obtain ⟨-, -, -, ⟨e0, e1, e2⟩⟩ := idx_facts t
  funext a; apply Fin.ext
  match a with
  | ⟨0, _⟩ => show win0_3.index t (0 : Fin 3) * 1 + 1 * 0 = t.val / 16; omega
  | ⟨1, _⟩ => show win0_3.index t (1 : Fin 3) * 1024 + 1 * p.val = 1024 * (t.val / 8 % 2) + p.val; omega
  | ⟨2, _⟩ => show win0_3.index t (2 : Fin 3) * 1024 + 1 * d.val = d.val; omega

/-! ## The input blocks, read off the argument array -/

/-- The query window's block at point t: rows of the query tile, first half of the last axis. -/
theorem iblk0_apply (c : Dev nD) (t : Fin cfg0.N) (p d : Fin 1024) :
    iblk m c 0 t (ix3 0 p d) = V m c main_arg0 (ix3 (bOf t) (qRow t p) (Cert.Spec.lo d)) := by
  show V m c main_arg0 (((cfg0.win 0).blk t).view.emb (ix3 0 p d)) = _
  rw [emb0_apply]

/-- The key window's block at point t: rows of the key tile, first half of the last axis. -/
theorem iblk1_apply (c : Dev nD) (t : Fin cfg0.N) (j : Fin 256) (d : Fin 1024) :
    iblk m c 1 t (ix3 0 j d) = V m c main_arg0 (ix3 (bOf t) (kRow t j) (Cert.Spec.lo d)) := by
  show V m c main_arg0 (((cfg0.win 1).blk t).view.emb (ix3 0 j d)) = _
  rw [emb1_apply]

/-- The gate window's block at point t: rows of the query tile, second half of the last axis. -/
theorem iblk2_apply (c : Dev nD) (t : Fin cfg0.N) (p d : Fin 1024) :
    iblk m c 2 t (ix3 0 p d) = V m c main_arg0 (ix3 (bOf t) (qRow t p) (Cert.Spec.hi d)) := by
  show V m c main_arg0 (((cfg0.win 2).blk t).view.emb (ix3 0 p d)) = _
  rw [emb2_apply]

/-! ## The output window's blocks cover the result array -/

/-- An index of the result array is in point t's output block iff each coordinate is in the block's range on its axis. -/
theorem mem_blk3 (t : Fin cfg0.N) (i : S4x2048x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v0).slice (win0_3.rect t)).set ↔ _
  rw [View.set_slice_whole, Rect.mem_set_unit]
  exact Iff.rfl

/-- The last-key-tile point of the batch and query tile that hold row r. -/
def lastPoint (b : Fin 4) (r : Fin 2048) : Fin cfg0.N :=
  ⟨16 * b.val + 8 * (r.val / 1024) + 7, lt_of_lt_of_eq (by have := b.isLt; have := r.isLt; omega : 16 * b.val + 8 * (r.val / 1024) + 7 < 64) N_0.symm⟩

theorem lastPoint_val (b : Fin 4) (r : Fin 2048) : (lastPoint b r).val = 16 * b.val + 8 * (r.val / 1024) + 7 := rfl

/-- Every index of the result array lies in the block of a point at which the output window is written back. -/
theorem cover3 : ∀ i : S4x2048x1024.Idx, ∃ t : Fin cfg0.N, (cfg0.win 3).flush t = true ∧ i ∈ ((cfg0.win 3).blk t).view.set := by
  intro i
  have h0 : (i 0).val < 4 := (i 0).isLt
  have h1 : (i 1).val < 2048 := (i 1).isLt
  have h2 : (i 2).val < 1024 := (i 2).isLt
  have htv := lastPoint_val (i 0) (i 1)
  obtain ⟨-, -, -, ⟨e0, e1, e2⟩⟩ := idx_facts (lastPoint (i 0) (i 1))
  refine ⟨lastPoint (i 0) (i 1), (flush0_3 _).2 (by omega), ?_⟩
  rw [mem_blk3]
  intro a
  match a with
  | ⟨0, _⟩ => show win0_3.index (lastPoint (i 0) (i 1)) (0 : Fin 3) * 1 ≤ (i 0).val ∧ (i 0).val < win0_3.index (lastPoint (i 0) (i 1)) (0 : Fin 3) * 1 + 1; omega
  | ⟨1, _⟩ => show win0_3.index (lastPoint (i 0) (i 1)) (1 : Fin 3) * 1024 ≤ (i 1).val ∧ (i 1).val < win0_3.index (lastPoint (i 0) (i 1)) (1 : Fin 3) * 1024 + 1024; omega
  | ⟨2, _⟩ => show win0_3.index (lastPoint (i 0) (i 1)) (2 : Fin 3) * 1024 ≤ (i 2).val ∧ (i 2).val < win0_3.index (lastPoint (i 0) (i 1)) (2 : Fin 3) * 1024 + 1024; omega

/-- Every index of the result array is (batch, row of the query tile, column) of a point at which the output window is
    written back. -/
theorem idx3_split (i : S4x2048x1024.Idx) :
    ∃ (t : Fin cfg0.N) (p : Fin 1024) (d : Fin 1024), (cfg0.win 3).flush t = true ∧ i = ix3 (bOf t) (qRow t p) d := by
  have h0 : (i 0).val < 4 := (i 0).isLt
  have h1 : (i 1).val < 2048 := (i 1).isLt
  have htv := lastPoint_val (i 0) (i 1)
  refine ⟨lastPoint (i 0) (i 1), ⟨(i 1).val % 1024, Nat.mod_lt _ (by decide)⟩, i 2, (flush0_3 _).2 (by omega), ?_⟩
  funext a; apply Fin.ext
  match a with
  | ⟨0, _⟩ => show (i 0).val = (lastPoint (i 0) (i 1)).val / 16; omega
  | ⟨1, _⟩ => show (i 1).val = 1024 * ((lastPoint (i 0) (i 1)).val / 8 % 2) + (i 1).val % 1024; omega
  | ⟨2, _⟩ => rfl

end Cert.KernelIdeal.Hand

end
-- ==== Proof.PartialSums.lean ====
/-
  Partial sums over the rows: the sum of a family indexed by the 2048 rows, taken over the rows whose number is
  below a bound. The bound 0 gives the empty sum, the bound 2048 the whole sum, and raising the bound by one tile of
  256 rows adds that tile's 256 terms. Only commutativity and associativity of addition are used, so everything
  holds in the extended reals.
-/
import proofs.«163894_j57870389346593_2_alg».proof.Proof.Spec

noncomputable section

open scoped BigOperators

namespace Cert.Spec

/-- the sum of f over the rows with number below n -/
def below (n : ℕ) (f : Fin 2048 → EReal) : EReal := ∑ s ∈ Finset.univ.filter (fun s : Fin 2048 => s.val < n), f s

/-- No row has a number below 0. -/
theorem below_zero (f : Fin 2048 → EReal) : below 0 f = 0 := by
  unfold below
  rw [Finset.filter_false_of_mem (fun s _ => Nat.not_lt_zero s.val), Finset.sum_empty]

/-- Every row has a number below 2048. -/
theorem below_all (f : Fin 2048 → EReal) : below 2048 f = ∑ s : Fin 2048, f s := by
  unfold below
  rw [Finset.filter_true_of_mem (fun s _ => s.isLt)]

/-- Raising the bound from n to n + m adds the m terms numbered n, n + 1, …, n + m - 1: the rows below n + m are
    those below n together with those from n on, and the latter are re-indexed by j ↦ n + j. -/
theorem below_add (f : Fin 2048 → EReal) (n m : ℕ) (h : n + m ≤ 2048) :
    below (n + m) f = below n f + ∑ j : Fin m, f ⟨n + j.val, by have := j.isLt; omega⟩ := by
  unfold below
  rw [← Finset.sum_filter_add_sum_filter_not
    (Finset.univ.filter (fun s : Fin 2048 => s.val < n + m)) (fun s : Fin 2048 => s.val < n)]
  congr 1
  · refine Finset.sum_congr ?_ (fun _ _ => rfl)
    ext s
    simp only [Finset.mem_filter, Finset.mem_univ, true_and]
    omega
  · symm
    refine Finset.sum_bij (fun j _ => (⟨n + j.val, by have := j.isLt; omega⟩ : Fin 2048)) ?_ ?_ ?_ ?_
    · intro j _
      have := j.isLt
      simp only [Finset.mem_filter, Finset.mem_univ, true_and]
      omega
    · intro j₁ _ j₂ _ h12
      have := congrArg Fin.val h12
      simp only at this
      exact Fin.ext (by omega)
    · intro s hs
      simp only [Finset.mem_filter, Finset.mem_univ, true_and] at hs
      exact ⟨⟨s.val - n, by omega⟩, Finset.mem_univ _, Fin.ext (by simp only; omega)⟩
    · intro j _
      rfl

/-- one more tile of 256 rows -/
theorem below_succ_tile (f : Fin 2048 → EReal) (k : ℕ) (hk : k < 8) :
    below (256 * (k + 1)) f = below (256 * k) f + ∑ j : Fin 256, f ⟨256 * k + j.val, by omega⟩ := by
  rw [Nat.mul_succ]
  exact below_add f (256 * k) 256 (by omega)

end Cert.Spec

end
-- ==== Proof.PieceValues.lean ====
/-
  What each case of the body leaves in a buffer, as a value.

  A case's run finds, per buffer, the list of pieces it stored there, last store first. Every store of the body
  covers its whole buffer, so what a buffer holds afterwards is the payload of the last store into it; and a load of a
  buffer stored earlier in the same run reads that earlier store's payload back. Hence each buffer's final contents is
  one of the body's payload terms, applied to the blocks the inputs hold, to what the point before left, or — in the
  first case, where the accumulators are cleared and the normalised query rows computed before they are used — to the
  payloads of those first stores.
-/
import proofs.«163894_j57870389346593_2_alg».proof.Proof.FramePieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 buffer, as the constant function. -/
theorem hz2 : (![0, 0] : Fin 2 → Nat) = fun _ => 0 := funext fun a => by fin_cases a <;> rfl
/-- The zero offsets of a rank-3 buffer, as the constant function. -/
theorem hz3 : (![0, 0, 0] : Fin 3 → Nat) = fun _ => 0 := funext fun a => by fin_cases a <;> rfl

section Cases

variable (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1024 .bf16) (harg9 : arg9.IsWhole)

/-! ## The first case -/

section CaseA

variable (hc0 : cond0_0 i) (hc1 : ¬cond0_1 i) (x0 : Vec F S1x1024x1024 .f32) (x1 : Vec F S1x256x1024 .f32) (x2 : Vec F S1x1024x1024 .f32)

/-- The first case leaves the normalised query rows of its query block. -/
theorem sout0_A_2_eq : sout0_A_2 c i arg3 harg3 arg4 harg4 arg5 harg5 arg6 harg6 arg7 harg7 arg8 harg8 arg9 harg9 hc0 hc1 x0 x1 x2 = k0_pay4 x0 := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_unit_zero hz2]
  simp only [View.readCov_unit_zero (S := S1024x1024) _ hz2, View.readCov_unit_zero (S := S1024x1) _ hz2, View.readAt_eq_ld, harg3.read_unread, harg4.read_unread, harg5.read_unread, harg7.read_unread, harg8.read_unread, harg9.read_unread, View.ld_unit_zero (S := S1024x1024) hz2, View.ld_unit_zero (S := S1024x1) hz2, View.ld_unit_zero (S := S1x256x1024) hz3, View.ld_unit_zero (S := S1x1024x1024) hz3]

/-- The first case leaves the row-sum update of the cleared row sums, over the normalised query rows it has just stored. -/
theorem sout0_A_1_eq : sout0_A_1 c i arg3 harg3 arg4 harg4 arg5 harg5 arg6 harg6 arg7 harg7 arg8 harg8 arg9 harg9 hc0 hc1 x0 x1 x2 = k0_pay7 (k0_pay4 x0) x1 k0_pay3 := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1) hz2]
  simp only [View.readCov_unit_zero (S := S1024x1024) _ hz2, View.readCov_unit_zero (S := S1024x1) _ hz2, View.readAt_eq_ld, harg3.read_unread, harg4.read_unread, harg5.read_unread, harg7.read_unread, harg8.read_unread, harg9.read_unread, View.ld_unit_zero (S := S1024x1024) hz2, View.ld_unit_zero (S := S1024x1) hz2, View.ld_unit_zero (S := S1x256x1024) hz3, View.ld_unit_zero (S := S1x1024x1024) hz3]

/-- The first case leaves the mixture update of the cleared accumulator, over the normalised query rows it has just stored. -/
theorem sout0_A_0_eq : sout0_A_0 c i arg3 harg3 arg4 harg4 arg5 harg5 arg6 harg6 arg7 harg7 arg8 harg8 arg9 harg9 hc0 hc1 x0 x1 x2 = k0_pay8 (k0_pay4 x0) x1 k0_pay2 := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1024) hz2]
  simp only [View.readCov_unit_zero (S := S1024x1024) _ hz2, View.readCov_unit_zero (S := S1024x1) _ hz2, View.readAt_eq_ld, harg3.read_unread, harg4.read_unread, harg5.read_unread, harg7.read_unread, harg8.read_unread, harg9.read_unread, View.ld_unit_zero (S := S1024x1024) hz2, View.ld_unit_zero (S := S1024x1) hz2, View.ld_unit_zero (S := S1x256x1024) hz3, View.ld_unit_zero (S := S1x1024x1024) hz3]

end CaseA

/-! ## The middle case -/

section CaseB

variable (hc0 : ¬cond0_0 i) (hc1 : ¬cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16)

/-- The middle case leaves the row-sum update of what the point before left. -/
theorem sout0_B_1_eq : sout0_B_1 c i arg3 harg3 arg4 harg4 arg5 harg5 arg6 harg6 arg7 harg7 arg8 harg8 arg9 harg9 hc0 hc1 x0 x1 x2 xs0 xs1 xs2 = k0_pay7 xs2 x1 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz2]
  simp only [View.readCov_unit_zero (S := S1024x1024) _ hz2, View.readCov_unit_zero (S := S1024x1) _ hz2, View.readAt_eq_ld, harg3.read_unread, harg4.read_unread, harg5.read_unread, harg7.read_unread, harg8.read_unread, harg9.read_unread, View.ld_unit_zero (S := S1024x1024) hz2, View.ld_unit_zero (S := S1024x1) hz2, View.ld_unit_zero (S := S1x256x1024) hz3, View.ld_unit_zero (S := S1x1024x1024) hz3]

/-- The middle case leaves the mixture update of what the point before left. -/
theorem sout0_B_0_eq : sout0_B_0 c i arg3 harg3 arg4 harg4 arg5 harg5 arg6 harg6 arg7 harg7 arg8 harg8 arg9 harg9 hc0 hc1 x0 x1 x2 xs0 xs1 xs2 = k0_pay8 xs2 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz2]
  simp only [View.readCov_unit_zero (S := S1024x1024) _ hz2, View.readCov_unit_zero (S := S1024x1) _ hz2, View.readAt_eq_ld, harg3.read_unread, harg4.read_unread, harg5.read_unread, harg7.read_unread, harg8.read_unread, harg9.read_unread, View.ld_unit_zero (S := S1024x1024) hz2, View.ld_unit_zero (S := S1024x1) hz2, View.ld_unit_zero (S := S1x256x1024) hz3, View.ld_unit_zero (S := S1x1024x1024) hz3]

end CaseB

/-! ## The last case -/

section CaseC

variable (hc0 : ¬cond0_0 i) (hc1 : cond0_1 i) (x0 : Vec F S1x1024x1024 .f32) (x1 : Vec F S1x256x1024 .f32) (x2 : Vec F S1x1024x1024 .f32) (xs0 : Vec F S1024x1024 .f32) (xs1 : Vec F S1024x1 .f32) (xs2 : Vec F S1024x1024 .bf16)

/-- The last case leaves the row-sum update of what the point before left. -/
theorem sout0_C_1_eq : sout0_C_1 c i arg3 harg3 arg4 harg4 arg5 harg5 arg6 harg6 arg7 harg7 arg8 harg8 arg9 harg9 hc0 hc1 x0 x1 x2 xs0 xs1 xs2 = k0_pay7 xs2 x1 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz2]
  simp only [View.readCov_unit_zero (S := S1024x1024) _ hz2, View.readCov_unit_zero (S := S1024x1) _ hz2, View.readAt_eq_ld, harg3.read_unread, harg4.read_unread, harg5.read_unread, harg7.read_unread, harg8.read_unread, harg9.read_unread, View.ld_unit_zero (S := S1024x1024) hz2, View.ld_unit_zero (S := S1024x1) hz2, View.ld_unit_zero (S := S1x256x1024) hz3, View.ld_unit_zero (S := S1x1024x1024) hz3]

/-- The last case leaves the mixture update of what the point before left. -/
theorem sout0_C_0_eq : sout0_C_0 c i arg3 harg3 arg4 harg4 arg5 harg5 arg6 harg6 arg7 harg7 arg8 harg8 arg9 harg9 hc0 hc1 x0 x1 x2 xs0 xs1 xs2 = k0_pay8 xs2 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz2]
  simp only [View.readCov_unit_zero (S := S1024x1024) _ hz2, View.readCov_unit_zero (S := S1024x1) _ hz2, View.readAt_eq_ld, harg3.read_unread, harg4.read_unread, harg5.read_unread, harg7.read_unread, harg8.read_unread, harg9.read_unread, View.ld_unit_zero (S := S1024x1024) hz2, View.ld_unit_zero (S := S1024x1) hz2, View.ld_unit_zero (S := S1x256x1024) hz3, View.ld_unit_zero (S := S1x1024x1024) hz3]

/-- The last case stores the final quotient and gate of the two updates it has just stored. -/
theorem out0_C_3_eq : out0_C_3 c i arg3 harg3 arg4 harg4 arg5 harg5 arg6 harg6 arg7 harg7 arg8 harg8 arg9 harg9 hc0 hc1 x0 x1 x2 xs0 xs1 xs2 = k0_pay1 x2 (k0_pay7 xs2 x1 xs1) (k0_pay8 xs2 x1 xs0) := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz3]
  simp only [View.readCov_unit_zero (S := S1024x1024) _ hz2, View.readCov_unit_zero (S := S1024x1) _ hz2, View.readAt_eq_ld, harg3.read_unread, harg4.read_unread, harg5.read_unread, harg7.read_unread, harg8.read_unread, harg9.read_unread, View.ld_unit_zero (S := S1024x1024) hz2, View.ld_unit_zero (S := S1024x1) hz2, View.ld_unit_zero (S := S1x256x1024) hz3, View.ld_unit_zero (S := S1x1024x1024) hz3]

end CaseC

end Cases

end Cert.KernelIdeal.Hand

end
-- ==== Proof.Payloads.lean ====
/-
  The kernel body's arithmetic, read at an index over the extended reals.

  Each stored value of the body is a composition of pointwise operations (products, sums, a quotient, a reciprocal
  root), layout operations (a unit axis added or dropped, a column broadcast along the rows, a transpose), lane sums
  and two matrix products. Read at one index the layout operations only move the index, the lane sums are finite sums
  over one coordinate and a matrix product into the zero accumulator is the sum of products over the contracted
  coordinate. The statements below say this for every stored value: the two zero fills, the normalised query block,
  one tile of similarities, the row-sum update, the mixture update, and the final quotient with its gate.
-/
import proofs.«163894_j57870389346593_2_alg».proof.Proof.Spec
import proofs.«163894_j57870389346593_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## Two layout operations at coordinates: a column made of a vector, and a column spread along the rows -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The zero fills -/

/-- the mixture accumulator starts at zero -/
theorem pay2_apply (i : S1024x1024.Idx) : k0_pay2 (F := Ideal) i = 0 := by
  unfold k0_pay2
  rw [shapeCast_self]
  exact Ideal.ofBits_zero_f32

/-- the row-sum accumulator starts at zero -/
theorem pay3_apply (i : S1024x1.Idx) : k0_pay3 (F := Ideal) i = 0 := by
  unfold k0_pay3
  rw [shapeCast_self]
  exact Ideal.ofBits_zero_f32

/-! ## The final quotient and gate -/

/-- the final quotient and gate -/
theorem pay1_apply (v35 : Vec Ideal S1x1024x1024 .f32) (v37 : Vec Ideal S1024x1 .f32) (v40 : Vec Ideal S1024x1024 .f32) (p d : Fin 1024) :
    k0_pay1 (F := Ideal) v35 v37 v40 (ix3 0 p d) = Ideal.div (v40 (ix2 p d)) (v37 (ix2 p 0) + Cert.Spec.eps) * v35 (ix3 0 p d) := by
  unfold k0_pay1
  refine (shapeCast_ab_1ab_apply _ _ 0 p d).trans ?_
  show Ideal.div (v40 (ix2 p d)) (broadcastTo S1024x1024 _ _ (ix2 p d)) * shapeCast S1024x1024 v35 _ (ix2 p d) = _
  rw [broadcastTo_a1_ab_apply, shapeCast_1ab_ab_apply]
  rfl

/-! ## A lane sum at coordinates -/

/-- The sum of an `[a, b]` array along its rows (a reduction over axis 1), read at row `r`: the sum over the row. -/
theorem multiReduction_rows_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ e : Fin b, src (ix2 r e) := by
  refine (Ideal.multiReduction_add_single src acc h hφ hacc (ix1 r)).trans ?_
  refine Finset.sum_congr rfl fun e _ => congrArg src ?_
  funext c
  refine Fin.ext ?_
  match c with
  | ⟨0, _⟩ => rfl
  | ⟨1, _⟩ => rfl

/-! ## The normalised query block -/

/-- the normalised query block: row p times the reciprocal root of its squared length plus ε -/
theorem pay4_apply (v43 : Vec Ideal S1x1024x1024 .f32) (p d : Fin 1024) :
    k0_pay4 (F := Ideal) v43 (ix2 p d) = v43 (ix3 0 p d) * Ideal.rsqrt ((∑ e : Fin 1024, v43 (ix3 0 p e) * v43 (ix3 0 p e)) + Cert.Spec.eps) := by
  unfold k0_pay4
  rw [shapeCast_self]
  show shapeCast S1024x1024 v43 _ (ix2 p d) * broadcastTo S1024x1024 _ _ (ix2 p d) = _
  rw [broadcastTo_a1_ab_apply, shapeCast_1ab_ab_apply]
  show _ * Ideal.rsqrt (shapeCast S1024x1 _ _ (ix2 p 0) + Cert.Spec.eps) = _
  rw [shapeCast_a_a1_apply]
  refine congrArg (fun z => v43 (ix3 0 p d) * Ideal.rsqrt (z + Cert.Spec.eps)) ?_
  refine (multiReduction_rows_apply _ _ _ _ _ p).trans ?_
  refine Finset.sum_congr rfl fun e _ => ?_
  show shapeCast S1024x1024 v43 _ (ix2 p e) * shapeCast S1024x1024 v43 _ (ix2 p e) = _
  rw [shapeCast_1ab_ab_apply]

/-! ## The two matrix products at coordinates

Into the zero accumulator a matrix product is, at `(p, c)`, the sum over the contracted coordinate `k` of the left
operand at `(p, k)` times the right operand at `(k, c)`. -/

/-- the left operand's row coordinate is the result's row -/
theorem lhs_qk_0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
/-- the left operand's column coordinate is the contracted one -/
theorem lhs_qk_1 (i : S1024x256.Idx) (q : dot_S1024x1024_S1024x256_S1024x256_1_0_0_1_n_n.contr.Idx) : (dot_S1024x1024_S1024x256_S1024x256_1_0_0_1_n_n.lhsIdx i q 1).val = (q ⟨0, by decide⟩).val :=
  dot_S1024x1024_S1024x256_S1024x256_1_0_0_1_n_n.lhsIdx_val_of_single rfl i q
/-- the right operand's row coordinate is the contracted one -/
theorem rhs_qk_0 (i : S1024x256.Idx) (q : dot_S1024x1024_S1024x256_S1024x256_1_0_0_1_n_n.contr.Idx) : (dot_S1024x1024_S1024x256_S1024x256_1_0_0_1_n_n.rhsIdx i q 0).val = (q ⟨0, by decide⟩).val :=
  dot_S1024x1024_S1024x256_S1024x256_1_0_0_1_n_n.rhsIdx_val_of_single rfl i q
/-- the right operand's column coordinate is the result's column -/
theorem rhs_qk_1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- query rows against the transposed key tile: `[1024, 1024] × [1024, 256]` -/
theorem matmul_qk_apply (lhs : FVec Ideal S1024x1024 .bf16) (rhs : FVec Ideal S1024x256 .bf16) (p : Fin 1024) (c : Fin 256) :
    matmul dot_S1024x1024_S1024x256_S1024x256_1_0_0_1_n_n none lhs rhs (constant (F := Ideal) S1024x256 .f32 0x00000000#32) (ix2 p c)
      = ∑ k : Fin 1024, lhs (ix2 p k) * rhs (ix2 k c) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p c) ((contrEquiv1 dot_S1024x1024_S1024x256_S1024x256_1_0_0_1_n_n 1024 rfl rfl).symm k) = ix2 p k :=
    funext fun a => Fin.ext (by
      match a with
      | ⟨0, _⟩ => exact lhs_qk_0 _ _
      | ⟨1, _⟩ => exact (lhs_qk_1 _ _).trans hk)
  have er : dot_S1024x1024_S1024x256_S1024x256_1_0_0_1_n_n.rhsIdx (ix2 p c) ((contrEquiv1 dot_S1024x1024_S1024x256_S1024x256_1_0_0_1_n_n 1024 rfl rfl).symm k) = ix2 k c :=
    funext fun a => Fin.ext (by
      match a with
      | ⟨0, _⟩ => exact (rhs_qk_0 _ _).trans hk
      | ⟨1, _⟩ => exact rhs_qk_1 _ _)
  rw [el, er]

/-! ## One tile of similarities -/

/-- the key tile with its unit axis dropped -/
theorem pay5_apply (v4 : Vec Ideal S1x256x1024 .f32) (j : Fin 256) (e : Fin 1024) :
    k0_pay5 (F := Ideal) v4 (ix2 j e) = v4 (ix3 0 j e) := by
  unfold k0_pay5
  exact shapeCast_1ab_ab_apply _ _ j e

/-- one tile of similarities: inner products of the stored normalised query rows with the normalised key rows -/
theorem pay6_apply (v3 : Vec Ideal S1024x1024 .bf16) (v4 : Vec Ideal S1x256x1024 .f32) (p : Fin 1024) (j : Fin 256) :
    k0_pay6 (F := Ideal) v3 v4 (ix2 p j) = ∑ e : Fin 1024, v3 (ix2 p e) * (v4 (ix3 0 j e) * Ideal.rsqrt ((∑ e' : Fin 1024, v4 (ix3 0 j e') * v4 (ix3 0 j e')) + Cert.Spec.eps)) := by
  unfold k0_pay6
  refine (matmul_qk_apply _ _ p j).trans ?_
  refine Finset.sum_congr rfl fun e _ => congrArg (v3 (ix2 p e) * ·) ?_
  refine (transpose_ix2_apply _ _ e j).trans ?_
  show k0_pay5 v4 (ix2 j e) * broadcastTo S256x1024 _ _ (ix2 j e) = _
  rw [broadcastTo_a1_ab_apply, pay5_apply]
  show _ * Ideal.rsqrt (shapeCast S256x1 _ _ (ix2 j 0) + Cert.Spec.eps) = _
  rw [shapeCast_a_a1_apply]
  refine congrArg (fun z => v4 (ix3 0 j e) * Ideal.rsqrt (z + Cert.Spec.eps)) ?_
  refine (multiReduction_rows_apply _ _ _ _ _ j).trans ?_
  refine Finset.sum_congr rfl fun e' _ => ?_
  show k0_pay5 v4 (ix2 j e') * k0_pay5 v4 (ix2 j e') = _
  rw [pay5_apply]

/-! ## The two accumulator updates -/

/-- the left operand's row coordinate is the result's row -/
theorem lhs_sv_0 (i : S1024x1024.Idx) (q : dot_S1024x256_S256x1024_S1024x1024_1_0_0_1_n_n.contr.Idx) : (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
/-- the left operand's column coordinate is the contracted one -/
theorem lhs_sv_1 (i : S1024x1024.Idx) (q : dot_S1024x256_S256x1024_S1024x1024_1_0_0_1_n_n.contr.Idx) : (dot_S1024x256_S256x1024_S1024x1024_1_0_0_1_n_n.lhsIdx i q 1).val = (q ⟨0, by decide⟩).val :=
  dot_S1024x256_S256x1024_S1024x1024_1_0_0_1_n_n.lhsIdx_val_of_single rfl i q
/-- the right operand's row coordinate is the contracted one -/
theorem rhs_sv_0 (i : S1024x1024.Idx) (q : dot_S1024x256_S256x1024_S1024x1024_1_0_0_1_n_n.contr.Idx) : (dot_S1024x256_S256x1024_S1024x1024_1_0_0_1_n_n.rhsIdx i q 0).val = (q ⟨0, by decide⟩).val :=
  dot_S1024x256_S256x1024_S1024x1024_1_0_0_1_n_n.rhsIdx_val_of_single rfl i q
/-- the right operand's column coordinate is the result's column -/
theorem rhs_sv_1 (i : S1024x1024.Idx) (q : dot_S1024x256_S256x1024_S1024x1024_1_0_0_1_n_n.contr.Idx) : (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- the similarity tile against the key tile: `[1024, 256] × [256, 1024]` -/
theorem matmul_sv_apply (lhs : FVec Ideal S1024x256 .bf16) (rhs : FVec Ideal S256x1024 .bf16) (p : Fin 1024) (c : Fin 1024) :
    matmul dot_S1024x256_S256x1024_S1024x1024_1_0_0_1_n_n none lhs rhs (constant (F := Ideal) S1024x1024 .f32 0x00000000#32) (ix2 p c)
      = ∑ k : Fin 256, lhs (ix2 p k) * rhs (ix2 k c) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p c) ((contrEquiv1 dot_S1024x256_S256x1024_S1024x1024_1_0_0_1_n_n 256 rfl rfl).symm k) = ix2 p k :=
    funext fun a => Fin.ext (by
      match a with
      | ⟨0, _⟩ => exact lhs_sv_0 _ _
      | ⟨1, _⟩ => exact (lhs_sv_1 _ _).trans hk)
  have er : dot_S1024x256_S256x1024_S1024x1024_1_0_0_1_n_n.rhsIdx (ix2 p c) ((contrEquiv1 dot_S1024x256_S256x1024_S1024x1024_1_0_0_1_n_n 256 rfl rfl).symm k) = ix2 k c :=
    funext fun a => Fin.ext (by
      match a with
      | ⟨0, _⟩ => exact (rhs_sv_0 _ _).trans hk
      | ⟨1, _⟩ => exact rhs_sv_1 _ _)
  rw [el, er]

/-- the row-sum update -/
theorem pay7_apply (v3 : Vec Ideal S1024x1024 .bf16) (v4 : Vec Ideal S1x256x1024 .f32) (v17 : Vec Ideal S1024x1 .f32) (p : Fin 1024) :
    k0_pay7 (F := Ideal) v3 v4 v17 (ix2 p 0) = v17 (ix2 p 0) + ∑ j : Fin 256, k0_pay6 (F := Ideal) v3 v4 (ix2 p j) := by
  unfold k0_pay7
  rw [shapeCast_self]
  show v17 (ix2 p 0) + shapeCast S1024x1 _ _ (ix2 p 0) = _
  rw [shapeCast_a_a1_apply]
  exact congrArg (v17 (ix2 p 0) + ·) (multiReduction_rows_apply _ _ _ _ _ p)

/-- the mixture update -/
theorem pay8_apply (v3 : Vec Ideal S1024x1024 .bf16) (v4 : Vec Ideal S1x256x1024 .f32) (v26 : Vec Ideal S1024x1024 .f32) (p d : Fin 1024) :
    k0_pay8 (F := Ideal) v3 v4 v26 (ix2 p d) = v26 (ix2 p d) + ∑ j : Fin 256, k0_pay6 (F := Ideal) v3 v4 (ix2 p j) * v4 (ix3 0 j d) := by
  unfold k0_pay8
  rw [shapeCast_self]
  show v26 (ix2 p d) + matmul (F := Ideal) dot_S1024x256_S256x1024_S1024x1024_1_0_0_1_n_n none _ _ _ (ix2 p d) = _
  refine congrArg (v26 (ix2 p d) + ·) ?_
  refine (matmul_sv_apply _ _ p d).trans ?_
  refine Finset.sum_congr rfl fun j _ => ?_
  show k0_pay6 v3 v4 (ix2 p j) * k0_pay5 v4 (ix2 j d) = _
  rw [pay5_apply]

end Cert.KernelIdeal.Payloads

end
-- ==== Proof.Steps.lean ====
/-
  The kernel body's stored values, step by step, in the specification's terms.

  The body keeps the normalised query rows of a block, and for each tile of 256 key rows forms the tile of
  similarities, adds the tile's similarities to the row sums and adds the tile's contribution to the mixture. Read
  at an index, each stored value is a finite sum; here those sums are identified with the specification's
  quantities. The row sums and the mixture are followed as partial sums over the key rows below 256·k: the cleared
  buffers are the empty partial sums, one tile raises the bound by 256, and after 8 tiles the partial sums are the
  whole sums, from which the stored block is the kernel's form of the result.
-/
import proofs.«163894_j57870389346593_2_alg».proof.Proof.Spec
import proofs.«163894_j57870389346593_2_alg».proof.Proof.PartialSums
import proofs.«163894_j57870389346593_2_alg».proof.Proof.Payloads

noncomputable section

open scoped BigOperators

namespace Cert.KernelIdeal.Steps

open Cert.Spec Cert.KernelIdeal Cert.KernelIdeal.Gen Cert.KernelIdeal.Payloads Idealize.ShloMosaic
  Idealize.ShloMosaic.ValueIdx

/-- the kept normalised query rows are the specification's -/
theorem nq_of_block (Xa : Arr) (b : Fin 4) (rows : Fin 1024 → Fin 2048) (xq : Vec Ideal S1x1024x1024 .f32)
    (hxq : ∀ p e : Fin 1024, xq (ix3 0 p e) = x0 Xa b (rows p) e) (p d : Fin 1024) :
    k0_pay4 (F := Ideal) xq (ix2 p d) = nK Xa b (rows p) d := by
  rw [pay4_apply]
  unfold nK Cert.Spec.sq
  simp only [hxq]

/-- one tile of similarities -/
theorem sim_tile (Xa : Arr) (b : Fin 4) (rows : Fin 1024 → Fin 2048) (k : ℕ) (hk : k < 8)
    (nq : Vec Ideal S1024x1024 .bf16) (xk : Vec Ideal S1x256x1024 .f32)
    (hnq : ∀ p e : Fin 1024, nq (ix2 p e) = nK Xa b (rows p) e)
    (hxk : ∀ (j : Fin 256) (e : Fin 1024),
      xk (ix3 0 j e) = x0 Xa b ⟨256 * k + j.val, by have := j.isLt; omega⟩ e)
    (p : Fin 1024) (j : Fin 256) :
    k0_pay6 (F := Ideal) nq xk (ix2 p j)
      = simK Xa b (rows p) ⟨256 * k + j.val, by have := j.isLt; omega⟩ := by
  rw [pay6_apply]
  unfold simK
  refine Finset.sum_congr rfl (fun e _ => ?_)
  rw [hnq]
  refine congrArg (nK Xa b (rows p) e * ·) ?_
  unfold nK Cert.Spec.sq
  simp only [hxk]

/-- the row sums after one more tile -/
theorem rows_step (Xa : Arr) (b : Fin 4) (rows : Fin 1024 → Fin 2048) (k : ℕ) (hk : k < 8)
    (nq : Vec Ideal S1024x1024 .bf16) (xk : Vec Ideal S1x256x1024 .f32)
    (hnq : ∀ p e : Fin 1024, nq (ix2 p e) = nK Xa b (rows p) e)
    (hxk : ∀ (j : Fin 256) (e : Fin 1024),
      xk (ix3 0 j e) = x0 Xa b ⟨256 * k + j.val, by have := j.isLt; omega⟩ e)
    (l : Vec Ideal S1024x1 .f32)
    (hl : ∀ p : Fin 1024, l (ix2 p 0) = below (256 * k) (fun s => simK Xa b (rows p) s)) (p : Fin 1024) :
    k0_pay7 (F := Ideal) nq xk l (ix2 p 0) = below (256 * (k + 1)) (fun s => simK Xa b (rows p) s) := by
  rw [pay7_apply, hl, below_succ_tile _ k hk]
  congr 1
  exact Finset.sum_congr rfl (fun j _ => sim_tile Xa b rows k hk nq xk hnq hxk p j)

/-- the mixture after one more tile -/
theorem mix_step (Xa : Arr) (b : Fin 4) (rows : Fin 1024 → Fin 2048) (k : ℕ) (hk : k < 8)
    (nq : Vec Ideal S1024x1024 .bf16) (xk : Vec Ideal S1x256x1024 .f32)
    (hnq : ∀ p e : Fin 1024, nq (ix2 p e) = nK Xa b (rows p) e)
    (hxk : ∀ (j : Fin 256) (e : Fin 1024),
      xk (ix3 0 j e) = x0 Xa b ⟨256 * k + j.val, by have := j.isLt; omega⟩ e)
    (acc : Vec Ideal S1024x1024 .f32)
    (hacc : ∀ p d : Fin 1024,
      acc (ix2 p d) = below (256 * k) (fun s => simK Xa b (rows p) s * x0 Xa b s d)) (p d : Fin 1024) :
    k0_pay8 (F := Ideal) nq xk acc (ix2 p d)
      = below (256 * (k + 1)) (fun s => simK Xa b (rows p) s * x0 Xa b s d) := by
  rw [pay8_apply, hacc, below_succ_tile _ k hk]
  congr 1
  refine Finset.sum_congr rfl (fun j _ => ?_)
  rw [sim_tile Xa b rows k hk nq xk hnq hxk p j, hxk]

/-- the cleared buffers are the empty partial sums -/
theorem rows_zero (f : Fin 2048 → EReal) (p : Fin 1024) : k0_pay3 (F := Ideal) (ix2 p 0) = below (256 * 0) f := by
  rw [pay3_apply, Nat.mul_zero, below_zero]

theorem mix_zero (f : Fin 2048 → EReal) (p d : Fin 1024) : k0_pay2 (F := Ideal) (ix2 p d) = below (256 * 0) f := by
  rw [pay2_apply, Nat.mul_zero, below_zero]

/-- the stored output block -/
theorem out_of_full (Xa : Arr) (b : Fin 4) (rows : Fin 1024 → Fin 2048) (xg : Vec Ideal S1x1024x1024 .f32)
    (l : Vec Ideal S1024x1 .f32) (acc : Vec Ideal S1024x1024 .f32)
    (hxg : ∀ p d : Fin 1024, xg (ix3 0 p d) = x1 Xa b (rows p) d)
    (hl : ∀ p : Fin 1024, l (ix2 p 0) = below (256 * 8) (fun s => simK Xa b (rows p) s))
    (hacc : ∀ p d : Fin 1024,
      acc (ix2 p d) = below (256 * 8) (fun s => simK Xa b (rows p) s * x0 Xa b s d)) (p d : Fin 1024) :
    k0_pay1 (F := Ideal) xg l acc (ix3 0 p d) = outKAt Xa b (rows p) d := by
  rw [pay1_apply, hl, hacc, hxg, show 256 * 8 = 2048 from rfl, below_all, below_all]
  rfl

end Cert.KernelIdeal.Steps

end
-- ==== Proof.Invariant.lean ====
/-
  The invariant of the kernel's sweep over the grid, at the extended reals. After the body at point t, the kept
  normalised rows are the specification's normalised rows of the point's query rows; the row sums and the mixture are
  the partial sums over the key rows of the tiles seen so far (those of number below 256·(key tile + 1)); and at a
  last key tile the stored block is the specification's result for the point's query rows. A first key tile starts
  from the cleared buffers (the empty partial sums); every other point continues from the point before it, which has
  the same batch and query tile and the key tile one lower.
-/
import proofs.«163894_j57870389346593_2_alg».proof.Proof.FramePieces
import proofs.«163894_j57870389346593_2_alg».proof.Proof.BlockReads
import proofs.«163894_j57870389346593_2_alg».proof.Proof.PartialSums
import proofs.«163894_j57870389346593_2_alg».proof.Proof.PieceValues
import proofs.«163894_j57870389346593_2_alg».proof.Proof.Steps

set_option maxRecDepth 16384

noncomputable section

open scoped BigOperators

namespace Cert.KernelIdeal.Hand

open Cert.KernelIdeal Cert.KernelIdeal.Gen
open Idealize.ShloMosaic Idealize.ShloMosaic.TcCoe
open Idealize.ShloMosaic.ValueIdx
open Cert.Spec Cert.KernelIdeal.Steps

/-! ## The kept buffers at a point -/

/-- The three kept buffers at point t: the normalised query rows, and the row sums and the mixture as partial sums over
    the key rows of the tiles up to t's. -/
def Kept (Xa : Arr) (t : Fin cfg0.N) (acc : Vec Ideal S1024x1024 .f32) (l : Vec Ideal S1024x1 .f32)
    (nq : Vec Ideal S1024x1024 .bf16) : Prop :=
  (∀ p d : Fin 1024, nq (ix2 p d) = nK Xa (bOf t) (qRow t p) d)
  ∧ (∀ p : Fin 1024, l (ix2 p 0) = below (256 * ((kOf t).val + 1)) (fun s => simK Xa (bOf t) (qRow t p) s))
  ∧ (∀ p d : Fin 1024, acc (ix2 p d)
      = below (256 * ((kOf t).val + 1)) (fun s => simK Xa (bOf t) (qRow t p) s * x0 Xa (bOf t) s d))

/-- At a first key tile the buffers are computed from the point's own blocks: the partial sums of one tile. -/
theorem kept_first (Xa : Arr) (t : Fin cfg0.N) (h0 : t.val % 8 = 0)
    (xq : Vec Ideal S1x1024x1024 .f32) (xk : Vec Ideal S1x256x1024 .f32)
    (hxq : ∀ p e : Fin 1024, xq (ix3 0 p e) = x0 Xa (bOf t) (qRow t p) e)
    (hxk : ∀ (j : Fin 256) (e : Fin 1024), xk (ix3 0 j e) = x0 Xa (bOf t) (kRow t j) e) :
    Kept Xa t (k0_pay8 (F := Ideal) (k0_pay4 xq) xk (k0_pay2 (F := Ideal))) (k0_pay7 (F := Ideal) (k0_pay4 xq) xk (k0_pay3 (F := Ideal)))
      (k0_pay4 (F := Ideal) xq) := by
  have hk0 : (kOf t).val = 0 := h0
  have hnq := nq_of_block Xa (bOf t) (qRow t) xq hxq
  refine ⟨hnq, fun p => ?_, fun p d => ?_⟩
  · exact rows_step Xa (bOf t) (qRow t) (kOf t).val (kOf t).isLt (k0_pay4 xq) xk hnq hxk (k0_pay3 (F := Ideal))
      (fun p => by rw [hk0]; exact rows_zero _ p) p
  · exact mix_step Xa (bOf t) (qRow t) (kOf t).val (kOf t).isLt (k0_pay4 xq) xk hnq hxk (k0_pay2 (F := Ideal))
      (fun p d => by rw [hk0]; exact mix_zero _ p d) p d

/-- At any other point one more tile is added to what the point before left: same batch and query rows, key tile one
    higher. -/
theorem kept_next (Xa : Arr) (t t' : Fin cfg0.N) (hb : bOf t' = bOf t) (hq : ∀ p, qRow t' p = qRow t p)
    (hk : (kOf t').val + 1 = (kOf t).val)
    (acc : Vec Ideal S1024x1024 .f32) (l : Vec Ideal S1024x1 .f32) (nq : Vec Ideal S1024x1024 .bf16)
    (h : Kept Xa t' acc l nq) (xk : Vec Ideal S1x256x1024 .f32)
    (hxk : ∀ (j : Fin 256) (e : Fin 1024), xk (ix3 0 j e) = x0 Xa (bOf t) (kRow t j) e) :
    Kept Xa t (k0_pay8 (F := Ideal) nq xk acc) (k0_pay7 (F := Ideal) nq xk l) nq := by
  obtain ⟨hnq, hl, hacc⟩ := h
  simp only [hb, hq, hk] at hnq hl hacc
  exact ⟨hnq, fun p => rows_step Xa (bOf t) (qRow t) (kOf t).val (kOf t).isLt nq xk hnq hxk l hl p,
    fun p d => mix_step Xa (bOf t) (qRow t) (kOf t).val (kOf t).isLt nq xk hnq hxk acc hacc p d⟩

/-- At a last key tile all eight tiles have been added, and the stored block is the specification's result. -/
theorem out_last (Xa : Arr) (t : Fin cfg0.N) (h7 : t.val % 8 = 7) (xg : Vec Ideal S1x1024x1024 .f32)
    (hxg : ∀ p d : Fin 1024, xg (ix3 0 p d) = x1 Xa (bOf t) (qRow t p) d)
    (acc : Vec Ideal S1024x1024 .f32) (l : Vec Ideal S1024x1 .f32) (nq : Vec Ideal S1024x1024 .bf16)
    (h : Kept Xa t acc l nq) (p d : Fin 1024) :
    k0_pay1 (F := Ideal) xg l acc (ix3 0 p d) = outKAt Xa (bOf t) (qRow t p) d := by
  obtain ⟨-, hl, hacc⟩ := h
  have hk7 : (kOf t).val + 1 = 8 := by show t.val % 8 + 1 = 8; omega
  rw [hk7] at hl hacc
  exact out_of_full Xa (bOf t) (qRow t) xg l acc hxg hl hacc p d

/-! ## The point before -/

theorem bOf_prev (n : ℕ) (hn : n < cfg0.N) (hn' : n - 1 < cfg0.N) (h0 : ¬n % 8 = 0) :
    bOf ⟨n - 1, hn'⟩ = bOf ⟨n, hn⟩ := Fin.ext (by show (n - 1) / 16 = n / 16; omega)

theorem qRow_prev (n : ℕ) (hn : n < cfg0.N) (hn' : n - 1 < cfg0.N) (h0 : ¬n % 8 = 0) (p : Fin 1024) :
    qRow ⟨n - 1, hn'⟩ p = qRow ⟨n, hn⟩ p :=
  Fin.ext (by show 1024 * ((n - 1) / 8 % 2) + p.val = 1024 * (n / 8 % 2) + p.val; omega)

theorem kOf_prev (n : ℕ) (hn : n < cfg0.N) (hn' : n - 1 < cfg0.N) (h0 : ¬n % 8 = 0) :
    (kOf ⟨n - 1, hn'⟩).val + 1 = (kOf ⟨n, hn⟩).val := by show (n - 1) % 8 + 1 = n % 8; omega

/-! ## The invariant -/

variable (m : (ℓ : Loc nD τ sig) → Buf (Elt Ideal) ℓ)

/-- After the body at point t: the kept rows are the specification's normalised rows of the block's query rows; the row
    sums and the mixture are the sums over the key rows of the tiles seen so far; and at a last key tile the stored
    block is the specification's result. -/
theorem inv (c : Dev nD) (n : ℕ) (hn : n < cfg0.N) :
      (∀ p d : Fin 1024, (outsAt0 m c n hn).2.2.2 (ix2 p d) = nK (V m c main_arg0) (bOf ⟨n, hn⟩) (qRow ⟨n, hn⟩ p) d)
    ∧ (∀ p : Fin 1024, (outsAt0 m c n hn).2.2.1 (ix2 p 0) = below (256 * ((kOf ⟨n, hn⟩).val + 1)) (fun s => simK (V m c main_arg0) (bOf ⟨n, hn⟩) (qRow ⟨n, hn⟩ p) s))
    ∧ (∀ p d : Fin 1024, (outsAt0 m c n hn).2.1 (ix2 p d) = below (256 * ((kOf ⟨n, hn⟩).val + 1)) (fun s => simK (V m c main_arg0) (bOf ⟨n, hn⟩) (qRow ⟨n, hn⟩ p) s * x0 (V m c main_arg0) (bOf ⟨n, hn⟩) s d))
    ∧ (n % 8 = 7 → ∀ p d : Fin 1024, (outsAt0 m c n hn).1 (ix3 0 p d) = outKAt (V m c main_arg0) (bOf ⟨n, hn⟩) (qRow ⟨n, hn⟩ p) d) := by
  induction n using Nat.strong_induction_on with
  | _ n ih =>
    have hxq : ∀ p e : Fin 1024, iblk m c 0 ⟨n, hn⟩ (ix3 0 p e) = x0 (V m c main_arg0) (bOf ⟨n, hn⟩) (qRow ⟨n, hn⟩ p) e :=
      fun p e => iblk0_apply m c ⟨n, hn⟩ p e
    have hxk : ∀ (j : Fin 256) (e : Fin 1024), iblk m c 1 ⟨n, hn⟩ (ix3 0 j e) = x0 (V m c main_arg0) (bOf ⟨n, hn⟩) (kRow ⟨n, hn⟩ j) e :=
      fun j e => iblk1_apply m c ⟨n, hn⟩ j e
    have hxg : ∀ p d : Fin 1024, iblk m c 2 ⟨n, hn⟩ (ix3 0 p d) = x1 (V m c main_arg0) (bOf ⟨n, hn⟩) (qRow ⟨n, hn⟩ p) d :=
      fun p d => iblk2_apply m c ⟨n, hn⟩ p d
    by_cases h0 : n % 8 = 0
    · have h1 : ¬n % 8 = 7 := by omega
      have E := outsAt0_A m c ⟨n, hn⟩ h0 h1
      rw [sout0_A_0_eq, sout0_A_1_eq, sout0_A_2_eq] at E
      have E' : outsAt0 m c n hn = (outJunk, k0_pay8 (F := Ideal) (k0_pay4 (iblk m c 0 ⟨n, hn⟩)) (iblk m c 1 ⟨n, hn⟩) (k0_pay2 (F := Ideal)),
          k0_pay7 (F := Ideal) (k0_pay4 (iblk m c 0 ⟨n, hn⟩)) (iblk m c 1 ⟨n, hn⟩) (k0_pay3 (F := Ideal)), k0_pay4 (F := Ideal) (iblk m c 0 ⟨n, hn⟩)) := E
      obtain ⟨k1, k2, k3⟩ := kept_first (V m c main_arg0) ⟨n, hn⟩ h0 (iblk m c 0 ⟨n, hn⟩) (iblk m c 1 ⟨n, hn⟩) hxq hxk
      rw [E']
      exact ⟨k1, k2, k3, fun h => absurd h h1⟩
    · have hn' : n - 1 < cfg0.N := Nat.lt_of_le_of_lt (Nat.sub_le _ _) hn
      obtain ⟨i1, i2, i3, -⟩ := ih (n - 1) (by omega) hn'
      have K' : Kept (V m c main_arg0) ⟨n - 1, hn'⟩ (outsAt0 m c (n - 1) hn').2.1 (outsAt0 m c (n - 1) hn').2.2.1
          (outsAt0 m c (n - 1) hn').2.2.2 := ⟨i1, i2, i3⟩
      have K := kept_next (V m c main_arg0) ⟨n, hn⟩ ⟨n - 1, hn'⟩ (bOf_prev n hn hn' h0) (qRow_prev n hn hn' h0)
        (kOf_prev n hn hn' h0) (outsAt0 m c (n - 1) hn').2.1 (outsAt0 m c (n - 1) hn').2.2.1
        (outsAt0 m c (n - 1) hn').2.2.2 K' (iblk m c 1 ⟨n, hn⟩) hxk
      by_cases h1 : n % 8 = 7
      · have E := outsAt0_C m c ⟨n, hn⟩ h0 h1
        rw [out0_C_3_eq, sout0_C_0_eq, sout0_C_1_eq] at E
        have E' : outsAt0 m c n hn = (k0_pay1 (F := Ideal) (iblk m c 2 ⟨n, hn⟩)
              (k0_pay7 (F := Ideal) (outsAt0 m c (n - 1) hn').2.2.2 (iblk m c 1 ⟨n, hn⟩) (outsAt0 m c (n - 1) hn').2.2.1)
              (k0_pay8 (F := Ideal) (outsAt0 m c (n - 1) hn').2.2.2 (iblk m c 1 ⟨n, hn⟩) (outsAt0 m c (n - 1) hn').2.1),
            k0_pay8 (F := Ideal) (outsAt0 m c (n - 1) hn').2.2.2 (iblk m c 1 ⟨n, hn⟩) (outsAt0 m c (n - 1) hn').2.1,
            k0_pay7 (F := Ideal) (outsAt0 m c (n - 1) hn').2.2.2 (iblk m c 1 ⟨n, hn⟩) (outsAt0 m c (n - 1) hn').2.2.1,
            (outsAt0 m c (n - 1) hn').2.2.2) := E
        have O := out_last (V m c main_arg0) ⟨n, hn⟩ h1 (iblk m c 2 ⟨n, hn⟩) hxg
          (k0_pay8 (F := Ideal) (outsAt0 m c (n - 1) hn').2.2.2 (iblk m c 1 ⟨n, hn⟩) (outsAt0 m c (n - 1) hn').2.1)
          (k0_pay7 (F := Ideal) (outsAt0 m c (n - 1) hn').2.2.2 (iblk m c 1 ⟨n, hn⟩) (outsAt0 m c (n - 1) hn').2.2.1)
          (outsAt0 m c (n - 1) hn').2.2.2 K
        obtain ⟨k1, k2, k3⟩ := K
        rw [E']
        exact ⟨k1, k2, k3, fun _ => O⟩
      · have E := outsAt0_B m c ⟨n, hn⟩ h0 h1
        rw [sout0_B_0_eq, sout0_B_1_eq] at E
        have E' : outsAt0 m c n hn = (outJunk,
            k0_pay8 (F := Ideal) (outsAt0 m c (n - 1) hn').2.2.2 (iblk m c 1 ⟨n, hn⟩) (outsAt0 m c (n - 1) hn').2.1,
            k0_pay7 (F := Ideal) (outsAt0 m c (n - 1) hn').2.2.2 (iblk m c 1 ⟨n, hn⟩) (outsAt0 m c (n - 1) hn').2.2.1,
            (outsAt0 m c (n - 1) hn').2.2.2) := E
        obtain ⟨k1, k2, k3⟩ := K
        rw [E']
        exact ⟨k1, k2, k3, fun h => absurd h h1⟩

end Cert.KernelIdeal.Hand

end
-- ==== Proof.KernelValue.lean ====
/-
  The result array after the run, at the extended reals: it is the specification's `outK` of the launched argument.

  A point at a last key tile writes its output block back; by the invariant over grid points that block is `outK`
  read through the block (row r of the block is row 1024·q + r of batch b). Every index of the result array lies
  in the block of exactly such a point, so the whole array is `outK`.
-/
import proofs.«163894_j57870389346593_2_alg».proof.Proof.Frame
import proofs.«163894_j57870389346593_2_alg».proof.Proof.Invariant
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What a point at a last key tile writes back is its block of `outK` of the launched argument. -/
theorem flushed3_eq (c : Dev nD) (t : Fin cfg0.N) (hf : (cfg0.win 3).flush t = true) :
    (dats m 0 c).flushed 3 t = ((cfg0.win 3).blk t).view.read (Elt Ideal) (Cert.Spec.outK (V m c main_arg0)) := by
  have hk : t.val % 8 = 7 := (flush0_3 t).mp hf
  show (cfg0.win 3).cut (grid0.coords t) ((dats m 0 c).after 3 t) = _
  rw [after0_3]
  funext y
  obtain ⟨p, d, rfl⟩ : ∃ (p d : Fin 1024), y = ix3 (0 : Fin 1) p d :=
    ⟨y 1, y 2, funext fun a => match a with
      | ⟨0, _⟩ => Fin.ext (by have h : (y 0).val < 1 := (y 0).isLt; show (y 0).val = 0; omega)
      | ⟨1, _⟩ => rfl | ⟨2, _⟩ => rfl⟩
  show (outsAt0 m c t.val t.isLt).1 (ix3 0 p d) = Cert.Spec.outK (V m c main_arg0) (((cfg0.win 3).blk t).view.emb (ix3 0 p d))
  rw [emb3_apply, (inv m c t.val t.isLt).2.2.2 hk p d]
  rfl

/-- The result array after the run. -/
theorem final3 (c : Dev nD) : (dats m 0 c).arrAt 3 cfg0.N = Cert.Spec.outK (V m c main_arg0) :=
  (dats m 0 c).arrAt_eq_of_cover 3 (Cert.Spec.outK (V m c main_arg0)) (fun t hf => flushed3_eq m c t hf) cover3

/-- The kernel's run, read: the result is `outK` of the launched argument, which is unchanged. -/
theorem value_run : θ_run defs (onTc (τ := τ) (main (F := Ideal))) ⟨m, fun _ => 0, ρ⟩ (fun r => ∀ c : Dev nD,
      r.2.mem ((c.tc : Thread nD τ).loc main_v0) = Cert.Spec.outK (m ((c.tc : Thread nD τ).loc main_arg0))
      ∧ r.2.mem ((c.tc : Thread nD τ).loc main_arg0) = m ((c.tc : Thread nD τ).loc main_arg0)) :=
  (θ_run defs _ _).mono (fun r h c => ⟨(h c).1.trans (final3 m c), (h c).2⟩) (run_result m ρ)

end Cert.KernelIdeal.Hand

end
-- ==== Proof.RefValue.lean ====
/-
  The reference program, read one stage at a time at explicit coordinates (b, t, d): each intermediate array of the
  reference is identified with the corresponding quantity of the specification (squared row length, normalised row,
  similarity, row sum, quotient), ending with the whole result array and the divisor stage.
-/
import proofs.«163894_j57870389346593_2_alg».proof.Proof.Spec
import proofs.«163894_j57870389346593_2_alg».proof.Proof.Gen.ReferenceIdeal.Read

noncomputable section

open scoped BigOperators

namespace Cert.ReferenceIdeal.RefValue

open Idealize.ShloMosaic Idealize.ShloMosaic.ValueIdx
open Cert.ReferenceIdeal Cert.ReferenceIdeal.Read Cert.Spec

/-- The first slice at (b, t, d) is the first half of the last axis. -/
theorem v0_at (X : Arr) (b : Fin 4) (t : Fin 2048) (d : Fin 1024) :
    val_main_v0 (F := Ideal) X (ix3 b t d) = x0 X b t d := by
  rw [val_main_v0_apply]
  unfold x0
  refine congrArg X (funext fun a => Fin.ext ?_)
  match a with
  | ⟨0, _⟩ => rfl
  | ⟨1, _⟩ => rfl
  | ⟨2, _⟩ => rfl

/-- The second slice at (b, t, d) is the second half of the last axis. -/
theorem v1_at (X : Arr) (b : Fin 4) (t : Fin 2048) (d : Fin 1024) :
    val_main_v1 (F := Ideal) X (ix3 b t d) = x1 X b t d := by
  rw [val_main_v1_apply]
  unfold x1
  refine congrArg X (funext fun a => Fin.ext ?_)
  match a with
  | ⟨0, _⟩ => rfl
  | ⟨1, _⟩ => rfl
  | ⟨2, _⟩ => rfl

/-- The first reduction at (b, t) is the squared length of the row. -/
theorem v3_at (X : Arr) (b : Fin 4) (t : Fin 2048) :
    val_main_v3 (F := Ideal) X (ix2 b t) = Spec.sq X b t := by
  rw [val_main_v3_apply, val_main_cst_apply, Ideal.ofBits_def, Ideal.ofBits_zero_f32, zero_add]
  unfold Spec.sq
  refine Finset.sum_congr rfl fun k _ => ?_
  have hk : idx_main_v3 (ix2 b t) k = ix3 b t k := funext fun a => Fin.ext (by
    match a with
    | ⟨0, _⟩ => rfl
    | ⟨1, _⟩ => rfl
    | ⟨2, _⟩ => rfl)
  rw [hk, val_main_v2_apply, Ideal.mulf_def, v0_at]

/-- The radicand at (b, t, 0): squared length plus ε. -/
theorem v6_at (X : Arr) (b : Fin 4) (t : Fin 2048) :
    val_main_v6 (F := Ideal) X (ix3 b t (0 : Fin 1)) = Spec.sq X b t + eps := by
  rw [val_main_v6_apply, val_main_v4_apply, val_main_v5_apply, val_main_cst_0_apply, Ideal.addf_def, Ideal.ofBits_def]
  have hk : idx_main_v4 (ix3 b t (0 : Fin 1)) = ix2 b t := funext fun a => Fin.ext (by
    match a with
    | ⟨0, _⟩ => rfl
    | ⟨1, _⟩ => rfl)
  rw [hk, v3_at]
  rfl

/-- The normalised row at (b, t, d): the entry divided by the root. -/
theorem v9_at (X : Arr) (b : Fin 4) (t : Fin 2048) (d : Fin 1024) :
    val_main_v9 (F := Ideal) X (ix3 b t d) = nR X b t d := by
  rw [val_main_v9_apply, val_main_v8_apply, val_main_v7_apply, Ideal.hostDivf_def, Ideal.hostUnary_sqrt_def, v0_at]
  have hk : idx_main_v8 (ix3 b t d) = ix3 b t (0 : Fin 1) := funext fun a => Fin.ext (by
    match a with
    | ⟨0, _⟩ => rfl
    | ⟨1, _⟩ => rfl
    | ⟨2, _⟩ => rfl)
  rw [hk, v6_at]
  rfl

/-- The similarity matrix at (b, t, s): the inner product of the normalised rows t and s. -/
theorem v10_at (X : Arr) (b : Fin 4) (t s : Fin 2048) :
    val_main_v10 (F := Ideal) X (ix3 b t s) = simR X b t s := by
  rw [val_main_v10_apply]
  unfold simR
  refine Finset.sum_congr rfl fun k _ => ?_
  have hl : lidx_main_v10 (ix3 b t s) k = ix3 b t k := funext fun a => Fin.ext (by
    match a with
    | ⟨0, _⟩ => rfl
    | ⟨1, _⟩ => rfl
    | ⟨2, _⟩ => rfl)
  have hr : ridx_main_v10 (ix3 b t s) k = ix3 b s k := funext fun a => Fin.ext (by
    match a with
    | ⟨0, _⟩ => rfl
    | ⟨1, _⟩ => rfl
    | ⟨2, _⟩ => rfl)
  rw [hl, hr, v9_at, v9_at]

/-- The second reduction at (b, t): the row sum of the similarity matrix. -/
theorem v11_at (X : Arr) (b : Fin 4) (t : Fin 2048) :
    val_main_v11 (F := Ideal) X (ix2 b t) = rowR X b t := by
  rw [val_main_v11_apply, val_main_cst_1_apply, Ideal.ofBits_def, Ideal.ofBits_zero_f32, zero_add]
  unfold rowR
  refine Finset.sum_congr rfl fun k _ => ?_
  have hk : idx_main_v11 (ix2 b t) k = ix3 b t k := funext fun a => Fin.ext (by
    match a with
    | ⟨0, _⟩ => rfl
    | ⟨1, _⟩ => rfl
    | ⟨2, _⟩ => rfl)
  rw [hk, v10_at]

/-- The reference's divisor stage (row sums + ε, shape [4,2048,1]) at (b, t, 0) is rowR + eps. -/
theorem den_eq (X : (⟨Cert.ReferenceIdeal.S4x2048x2048, .f32⟩ : BufTy).Contents (Elt Ideal)) (b : Fin 4) (t : Fin 2048) :
    Cert.ReferenceIdeal.Read.val_main_v14 (F := Ideal) X (ValueIdx.ix3 b t (0 : Fin 1)) = Cert.Spec.rowR X b t + Cert.Spec.eps := by
  rw [val_main_v14_apply, val_main_v12_apply, val_main_v13_apply, val_main_cst_2_apply, Ideal.addf_def, Ideal.ofBits_def]
  have hk : idx_main_v12 (ix3 b t (0 : Fin 1)) = ix2 b t := funext fun a => Fin.ext (by
    match a with
    | ⟨0, _⟩ => rfl
    | ⟨1, _⟩ => rfl)
  rw [hk, v11_at]
  rfl

/-- The quotient stage at (b, t, s): the similarity divided by (row sum + ε). -/
theorem v16_at (X : Arr) (b : Fin 4) (t s : Fin 2048) :
    val_main_v16 (F := Ideal) X (ix3 b t s) = Ideal.div (simR X b t s) (rowR X b t + eps) := by
  rw [val_main_v16_apply, val_main_v15_apply, Ideal.hostDivf_def, v10_at]
  have hk : idx_main_v15 (ix3 b t s) = ix3 b t (0 : Fin 1) := funext fun a => Fin.ext (by
    match a with
    | ⟨0, _⟩ => rfl
    | ⟨1, _⟩ => rfl
    | ⟨2, _⟩ => rfl)
  rw [hk, den_eq]

/-- The mixture at (b, t, d): the divided similarities against the rows of the first half. -/
theorem v17_at (X : Arr) (b : Fin 4) (t : Fin 2048) (d : Fin 1024) :
    val_main_v17 (F := Ideal) X (ix3 b t d)
      = ∑ s : Fin 2048, Ideal.div (simR X b t s) (rowR X b t + eps) * x0 X b s d := by
  rw [val_main_v17_apply]
  refine Finset.sum_congr rfl fun k _ => ?_
  have hl : lidx_main_v17 (ix3 b t d) k = ix3 b t k := funext fun a => Fin.ext (by
    match a with
    | ⟨0, _⟩ => rfl
    | ⟨1, _⟩ => rfl
    | ⟨2, _⟩ => rfl)
  have hr : ridx_main_v17 (ix3 b t d) k = ix3 b k d := funext fun a => Fin.ext (by
    match a with
    | ⟨0, _⟩ => rfl
    | ⟨1, _⟩ => rfl
    | ⟨2, _⟩ => rfl)
  rw [hl, hr, v16_at, v0_at]

/-- The reference's result, as an array, is outR of its argument. -/
theorem result_eq (X : (⟨Cert.ReferenceIdeal.S4x2048x2048, .f32⟩ : BufTy).Contents (Elt Ideal)) :
    Cert.ReferenceIdeal.Read.val_main_v18 (F := Ideal) X = Cert.Spec.outR X := by
  funext i
  obtain ⟨b, t, d, rfl⟩ : ∃ (b : Fin 4) (t : Fin 2048) (d : Fin 1024), i = ix3 b t d := ⟨i 0, i 1, i 2, eq_ix3 i⟩
  rw [val_main_v18_apply, Ideal.mulf_def, v17_at, v1_at]
  rfl

end Cert.ReferenceIdeal.RefValue

end
-- ==== Proof.PreDecode.lean ====
/-
  The printed precondition, read back at the extended reals. It is the conjunction of two "for all" tests:
  every entry of the argument has absolute value below +∞, and every (row sum + ε) of the reference's own
  divisor stage differs from zero. The first says every entry is a real number; the second, through the
  identification of the divisor stage with the specification's row sums, that no (row sum + ε) vanishes.
-/
import proofs.«163894_j57870389346593_2_alg».proof.Proof.Spec
import proofs.«163894_j57870389346593_2_alg».proof.Proof.RefValue
import proofs.«163894_j57870389346593_2_alg».proof.Pre_finite_inputs
import Idealize.ShloMosaic.Lib.ReduceAll

noncomputable section

open scoped BigOperators

namespace Cert.Pre_finite_inputs.Decode

open Idealize.ShloMosaic Idealize.ShloMosaic.ValueIdx
open Cert.Pre_finite_inputs Cert.Pre_finite_inputs.Facts

/-- The scalar shape has one index. -/
instance : Subsingleton Cert.Pre_finite_inputs.S_.Idx := ⟨fun a b => funext fun d => d.elim0⟩

/-- A one-bit word made from a Boolean is 1 exactly when the Boolean is true. -/
theorem ofBool_eq_one (b : Bool) : BitVec.ofBool b = 1#1 ↔ b = true := by cases b <;> decide

variable [Cert.Pre_finite_inputs.Facts]

/-- The entrywise test "|x| < +∞". -/
def finTest (X : Cert.Spec.Arr) : IVec S4x2048x2048 1 :=
  cmpf .olt (Host.absf (F := Ideal) (φ := .f32) X)
    (broadcastInDim S4x2048x2048 ![] bcast_S_S4x2048x2048 (constant (F := Ideal) S_ .f32 0x7F800000#32))

/-- The test "(row sum + ε) ≠ 0" on the reference's divisor stage. -/
def denTest (X : Cert.Spec.Arr) : IVec S4x2048x1 1 :=
  cmpf .une (Cert.ReferenceIdeal.Read.val_main_v14 (F := Ideal) X)
    (broadcastInDim S4x2048x1 ![] bcast_S_S4x2048x1 (constant (F := Ideal) S_ .f32 0x00000000#32))

/-- The precondition is the conjunction of the two tests, each reduced by "and" over all its entries. -/
theorem fn_eq (X : Cert.Spec.Arr) :
    Cert.Pre_finite_inputs.fn (F := Ideal) X
      = andi (Host.reduce IntOp.andi (finTest X) (constantI S_ 1 1#1) reducesTo_S4x2048x2048_S_d0_1_2 h_S_)
          (Host.reduce IntOp.andi (denTest X) (constantI S_ 1 1#1) reducesTo_S4x2048x1_S_d0_1_2 h_S_) := rfl

/-- An extended real whose absolute value is below +∞ is a real number. -/
theorem real_of_abs_lt_top (x : EReal) (hx : max x (-x) < ⊤) : ∃ r : ℝ, x = ((r : ℝ) : EReal) := by
  induction x using EReal.rec with
  | bot => exact absurd hx (by simp)
  | coe r => exact ⟨r, rfl⟩
  | top => exact absurd hx (by simp)

/-- The printed precondition at Ideal says: every entry is a real number, and no (row sum + ε) is zero. -/
theorem decode (X : Cert.Spec.Arr) (h : Cert.Pre_finite_inputs.fn (F := Ideal) X = fun _ => 1#1) :
    (∀ i, ∃ r : ℝ, X i = ((r : ℝ) : EReal)) ∧ (∀ (b : Fin 4) (t : Fin 2048), Cert.Spec.rowR X b t + Cert.Spec.eps ≠ 0) := by
  have h0 := congrFun h ValueIdx.ix0
  rw [fn_eq] at h0
  obtain ⟨h1, h2⟩ := IntOp.andi_eq_one.1 h0
  refine ⟨fun i => ?_, fun b t => ?_⟩
  · have hi : finTest X i = 1#1 := Host.reduce_andi_all _ _ _ _ _ h1 i
    have hi' : Ideal.cmp .olt (max (X i) (-(X i))) (Ideal.ofBits .f32 0x7F800000#32) = 1#1 := hi
    have htop : Ideal.ofBits .f32 0x7F800000#32 = ⊤ := by simp [Ideal.ofBits, Ideal.ieee]
    rw [htop] at hi'
    simp only [Ideal.cmp, ofBool_eq_one, decide_eq_true_eq] at hi'
    exact real_of_abs_lt_top _ hi'
  · have hj : denTest X (ix3 b t (0 : Fin 1)) = 1#1 := Host.reduce_andi_all _ _ _ _ _ h2 _
    have hj' : Ideal.cmp .une (Cert.ReferenceIdeal.Read.val_main_v14 (F := Ideal) X (ix3 b t (0 : Fin 1)))
        (Ideal.ofBits .f32 0x00000000#32) = 1#1 := hj
    rw [Ideal.ofBits_zero_f32, Cert.ReferenceIdeal.RefValue.den_eq] at hj'
    simp only [Ideal.cmp, ofBool_eq_one, decide_eq_true_eq] at hj'
    exact hj'

end Cert.Pre_finite_inputs.Decode

end
-- ==== Proof.SpecAlgebra.lean ====
/-
  The algebra behind the claim: where every entry of the argument is a real number and no (row sum + ε) vanishes,
  the two forms of the result agree.

  Extended-real multiplication does not distribute over addition at the infinities, so nothing is rearranged in the
  extended reals. Instead every quantity of the specification is first shown to be the coercion of a real number
  built the same way from the real entries; the two differences between the forms then become the laws
  y·(√r)⁻¹ = y·(1/√r)  and  (Σ_s a_s·y_s)·c = Σ_s (a_s·c)·y_s  of the real field.
-/
import proofs.«163894_j57870389346593_2_alg».proof.Proof.Spec

noncomputable section

open scoped BigOperators

namespace Cert.Spec

open Idealize.ShloMosaic Idealize.ShloMosaic.ValueIdx

/-- The coercion of the reals into the extended reals goes through a finite sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- ε as a real number: the word has sign 0, exponent 107 and fraction 407485, so it denotes
    (2^23 + 407485) · 2^(107 - 127 - 23) = 8796093 / 2^43. -/
def epsR : ℝ := 8796093 / 2 ^ 43

theorem epsR_pos : 0 < epsR := by unfold epsR; positivity

theorem eps_eq : eps = ((epsR : ℝ) : EReal) := by
  simp [eps, epsR, Ideal.ofBits, Ideal.ieee, -EReal.coe_mul]; norm_num

/-- ε is a positive real. -/
theorem eps_pos : ∃ e : ℝ, 0 < e ∧ eps = ((e : ℝ) : EReal) := ⟨epsR, epsR_pos, eps_eq⟩

/-! ### The real-valued counterparts

For an array of real entries, the same quantities computed in the real field. -/

/-- An argument array with real entries. -/
abbrev RArr : Type := (⟨3, ![4, 2048, 2048]⟩ : Shape).Idx → ℝ

/-- The array of extended reals whose entries are the given reals. -/
def up (f : RArr) : Arr := fun i => ((f i : ℝ) : EReal)

/-- The first half of the last axis. -/
def rx0 (f : RArr) (b : Fin 4) (t : Fin 2048) (d : Fin 1024) : ℝ := f (ix3 b t (lo d))
/-- The second half of the last axis. -/
def rx1 (f : RArr) (b : Fin 4) (t : Fin 2048) (d : Fin 1024) : ℝ := f (ix3 b t (hi d))
/-- The squared length of a row. -/
def rsq (f : RArr) (b : Fin 4) (t : Fin 2048) : ℝ := ∑ d : Fin 1024, rx0 f b t d * rx0 f b t d
/-- The squared length plus ε: what stands under the root. -/
def rr (f : RArr) (b : Fin 4) (t : Fin 2048) : ℝ := rsq f b t + epsR
/-- The normalised row. -/
def rn (f : RArr) (b : Fin 4) (t : Fin 2048) (d : Fin 1024) : ℝ := rx0 f b t d * (Real.sqrt (rr f b t))⁻¹
/-- The similarity of two rows. -/
def rsim (f : RArr) (b : Fin 4) (t s : Fin 2048) : ℝ := ∑ d : Fin 1024, rn f b t d * rn f b s d
/-- A row's sum of similarities. -/
def rrow (f : RArr) (b : Fin 4) (t : Fin 2048) : ℝ := ∑ s : Fin 2048, rsim f b t s

variable (f : RArr) (b : Fin 4) (t s : Fin 2048) (d : Fin 1024)

theorem rsq_nonneg : 0 ≤ rsq f b t := Finset.sum_nonneg (fun _ _ => mul_self_nonneg _)

/-- What stands under the root is positive: a sum of squares plus a positive ε. -/
theorem rr_pos : 0 < rr f b t := add_pos_of_nonneg_of_pos (rsq_nonneg f b t) epsR_pos

/-! ### Every quantity of the specification is the coercion of its real counterpart -/

theorem x0_up : x0 (up f) b t d = ((rx0 f b t d : ℝ) : EReal) := rfl

theorem x1_up : x1 (up f) b t d = ((rx1 f b t d : ℝ) : EReal) := rfl

theorem sq_up : sq (up f) b t = ((rsq f b t : ℝ) : EReal) := by
  unfold sq rsq
  rw [← coe_finset_sum]
  refine Finset.sum_congr rfl (fun d _ => ?_)
  rw [x0_up, EReal.coe_mul]

theorem sq_add_eps : sq (up f) b t + eps = ((rr f b t : ℝ) : EReal) := by
  rw [sq_up, eps_eq, ← EReal.coe_add]; rfl

/-- The reciprocal root of a positive real is the real reciprocal root. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The root of a positive real is the real root. -/
theorem sqrt_coe_of_pos {r : ℝ} (h : 0 < r) : Ideal.sqrt (r : EReal) = ((Real.sqrt r : ℝ) : EReal) := by
  rw [Ideal.sqrt_coe, if_neg (not_lt.mpr h.le)]

/-- The kernel's normalisation: times the reciprocal root. -/
theorem nK_up : nK (up f) b t d = ((rn f b t d : ℝ) : EReal) := by
  unfold nK rn
  rw [sq_add_eps, rsqrt_coe_of_pos (rr_pos f b t), x0_up, EReal.coe_mul]

/-- The reference's normalisation: divided by the root, which is not zero; y / √r = y · (√r)⁻¹. -/
theorem nR_up : nR (up f) b t d = ((rn f b t d : ℝ) : EReal) := by
  unfold nR rn
  rw [sq_add_eps, sqrt_coe_of_pos (rr_pos f b t),
    Ideal.div_coe (Real.sqrt_pos.mpr (rr_pos f b t)).ne', x0_up, one_div, EReal.coe_mul]

theorem simK_up : simK (up f) b t s = ((rsim f b t s : ℝ) : EReal) := by
  unfold simK rsim
  rw [← coe_finset_sum]
  refine Finset.sum_congr rfl (fun d _ => ?_)
  rw [nK_up, nK_up, EReal.coe_mul]

theorem simR_up : simR (up f) b t s = ((rsim f b t s : ℝ) : EReal) := by
  unfold simR rsim
  rw [← coe_finset_sum]
  refine Finset.sum_congr rfl (fun d _ => ?_)
  rw [nR_up, nR_up, EReal.coe_mul]

theorem rowK_up : rowK (up f) b t = ((rrow f b t : ℝ) : EReal) := by
  unfold rowK rrow
  rw [← coe_finset_sum]
  exact Finset.sum_congr rfl (fun s _ => simK_up f b t s)

theorem rowR_up : rowR (up f) b t = ((rrow f b t : ℝ) : EReal) := by
  unfold rowR rrow
  rw [← coe_finset_sum]
  exact Finset.sum_congr rfl (fun s _ => simR_up f b t s)

/-! ### The quotient, and the two forms of the result -/

theorem rowK_add_eps : rowK (up f) b t + eps = ((rrow f b t + epsR : ℝ) : EReal) := by
  rw [rowK_up, eps_eq, ← EReal.coe_add]

theorem rowR_add_eps : rowR (up f) b t + eps = ((rrow f b t + epsR : ℝ) : EReal) := by
  rw [rowR_up, eps_eq, ← EReal.coe_add]

/-- The kernel's form: the finished mixture times the reciprocal of (row sum + ε), gated. -/
theorem outKAt_up (h : rrow f b t + epsR ≠ 0) :
    outKAt (up f) b t d =
      (((∑ s : Fin 2048, rsim f b t s * rx0 f b s d) * (1 / (rrow f b t + epsR)) * rx1 f b t d : ℝ) : EReal) := by
  unfold outKAt
  have hsum : (∑ s : Fin 2048, simK (up f) b t s * x0 (up f) b s d)
      = ((∑ s : Fin 2048, rsim f b t s * rx0 f b s d : ℝ) : EReal) := by
    rw [← coe_finset_sum]
    refine Finset.sum_congr rfl (fun s _ => ?_)
    rw [simK_up, x0_up, EReal.coe_mul]
  rw [hsum, rowK_add_eps, Ideal.div_coe h, x1_up, EReal.coe_mul, EReal.coe_mul]

/-- The reference's form: every similarity times the reciprocal of (row sum + ε), then mixed, gated. -/
theorem outRAt_up (h : rrow f b t + epsR ≠ 0) :
    outRAt (up f) b t d =
      (((∑ s : Fin 2048, rsim f b t s * (1 / (rrow f b t + epsR)) * rx0 f b s d) * rx1 f b t d : ℝ) : EReal) := by
  unfold outRAt
  have hsum : (∑ s : Fin 2048, Ideal.div (simR (up f) b t s) (rowR (up f) b t + eps) * x0 (up f) b s d)
      = ((∑ s : Fin 2048, rsim f b t s * (1 / (rrow f b t + epsR)) * rx0 f b s d : ℝ) : EReal) := by
    rw [← coe_finset_sum]
    refine Finset.sum_congr rfl (fun s _ => ?_)
    rw [rowR_add_eps, Ideal.div_coe h, simR_up, x0_up, EReal.coe_mul, EReal.coe_mul]
  rw [hsum, x1_up, EReal.coe_mul]

/-- In the real field the constant factor moves inside the sum: (Σ_s a_s·y_s)·c = Σ_s (a_s·c)·y_s. -/
theorem sum_mul_const {ι : Type*} (u : Finset ι) (a y : ι → ℝ) (c : ℝ) :
    (∑ i ∈ u, a i * y i) * c = ∑ i ∈ u, a i * c * y i := by
  rw [Finset.sum_mul]
  exact Finset.sum_congr rfl (fun i _ => mul_right_comm _ _ _)

/-- The two forms agree at every position where (row sum + ε) is not zero. -/
theorem outKAt_eq_outRAt (h : rrow f b t + epsR ≠ 0) : outKAt (up f) b t d = outRAt (up f) b t d := by
  rw [outKAt_up f b t d h, outRAt_up f b t d h, sum_mul_const]

/-- The same with the hypothesis as the specification states it: (row sum + ε), as an extended real, is not zero. -/
theorem outKAt_eq_outRAt_of_den (hden : ∀ (b : Fin 4) (t : Fin 2048), rowR (up f) b t + eps ≠ 0)
    (b : Fin 4) (t : Fin 2048) (d : Fin 1024) : outKAt (up f) b t d = outRAt (up f) b t d := by
  refine outKAt_eq_outRAt f b t d (fun h0 => hden b t ?_)
  rw [rowR_add_eps, h0, EReal.coe_zero]

/-- Where every entry is a real number and no (row sum + ε) vanishes, the two forms agree. -/
theorem outK_eq_outR (X : Arr) (hfin : ∀ i, ∃ r : ℝ, X i = ((r : ℝ) : EReal))
    (hden : ∀ (b : Fin 4) (t : Fin 2048), rowR X b t + eps ≠ 0) : outK X = outR X := by
  choose g hg using hfin
  obtain rfl : X = up g := funext hg
  funext i
  exact outKAt_eq_outRAt_of_den g hden (i 0) (i 1) (i 2)

end Cert.Spec

end
-- ==== Proof.lean ====
/-
  The kernel computes, for every batch, a cosine-similarity mixture of the rows of the first half x0 of its argument,
  gated by the second half x1: rows are normalised by the reciprocal root of (squared length + ε), all inner products
  of normalised rows of a batch form a similarity matrix, and row t of the result is
  (Σ_s sim(t,s)·x0(s,·)) / (Σ_s sim(t,s) + ε) · x1(t,·), accumulated over eight tiles of 256 key rows. The reference
  divides by the root instead of multiplying by its reciprocal, and divides every similarity by (row sum + ε) before
  mixing. Under the precondition — every entry a finite number and no (row sum + ε) zero — every quantity is a real
  number and the two forms are equal by the laws of the real field (Spec, SpecAlgebra).

  The five conjuncts: both printed kernels run to the end, fault nowhere and leave the argument as it was (Frame, for
  the word-level text and for its reading at the extended reals alike: the two texts are the same, the ideal pass
  having rewritten nothing, so the fourth conjunct is trivial); the reference does too; and the two results are equal
  element by element: the kernel's is `outK` of the argument (KernelValue, over the invariant of the tile-by-tile
  accumulation), the reference's is `outR` (RefValue), and the precondition read at the extended reals (PreDecode)
  gives the two hypotheses of `outK = outR`.
-/
import proofs.«163894_j57870389346593_2_alg».proof.Defs
import proofs.«163894_j57870389346593_2_alg».proof.Proof.Gen.Kernel
import proofs.«163894_j57870389346593_2_alg».proof.Proof.Gen.KernelIdeal
import proofs.«163894_j57870389346593_2_alg».proof.Proof.Gen.ReferenceIdeal
import proofs.«163894_j57870389346593_2_alg».proof.Proof.Gen.Pre_finite_inputs
import proofs.«163894_j57870389346593_2_alg».proof.Proof.Gen.ReferenceIdeal.Read
import proofs.«163894_j57870389346593_2_alg».proof.Proof.KFrame
import proofs.«163894_j57870389346593_2_alg».proof.Proof.KernelValue
import proofs.«163894_j57870389346593_2_alg».proof.Proof.RefValue
import proofs.«163894_j57870389346593_2_alg».proof.Proof.PreDecode
import proofs.«163894_j57870389346593_2_alg».proof.Proof.SpecAlgebra

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The two results agree: `outK` of the argument on the kernel's side, `outR` on the reference's, equal where the
    precondition holds. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.outK (m ((c.tc : Thread Cert.KernelIdeal.nD Cert.KernelIdeal.τ).loc Cert.KernelIdeal.main_arg0)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  obtain ⟨hfin, hden⟩ := Cert.Pre_finite_inputs.Decode.decode _ (hpre c)
  rw [Cert.ReferenceIdeal.Read.val_main_v18_eq, Cert.ReferenceIdeal.RefValue.result_eq, hagree c]
  exact (Cert.Spec.outK_eq_outR _ hfin hden).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
